-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x64 : Shape := ⟨3, ![1, 8192, 64]⟩
abbrev S4096x64 : Shape := ⟨2, ![4096, 64]⟩
abbrev S2x4096x8192 : Shape := ⟨3, ![2, 4096, 8192]⟩
abbrev S192x64 : Shape := ⟨2, ![192, 64]⟩
abbrev S64 : Shape := ⟨1, ![64]⟩
abbrev S_ : Shape := ⟨0, ![]⟩

class Facts : Prop where
  bcast_S_S1x8192x64 : S_.BroadcastsInDim S1x8192x64 (![] : Fin 0 → Fin S1x8192x64.rank)
  reducesTo_S1x8192x64_S_d0_1_2 : S1x8192x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S2x4096x8192 : S_.BroadcastsInDim S2x4096x8192 (![] : Fin 0 → Fin S2x4096x8192.rank)
  reducesTo_S2x4096x8192_S_d0_1_2 : S2x4096x8192.ReducesTo [0, 1, 2] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S192x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg8
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S192x64 .f32) (main_arg5 : FVec F S64 .f32) (main_arg6 : FVec F S192x64 .f32) (main_arg7 : FVec F S64 .f32) (main_arg8 : FVec F S192x64 .f32) (main_arg9 : FVec F S64 .f32) (main_v13 : IVec S_ 1) (main_v16 : IVec S2x4096x8192 1) : IVec S_ 1 :=
  let main_c_5 : IVec S_ 1 := constantI S_ 1 1#1
  let main_v17 : IVec S_ 1 := (fun x v => Host.reduce IntOp.andi x v reducesTo_S2x4096x8192_S_d0_1_2 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x8192x64 .f32) (main_arg1 : FVec F S1x8192x64 .f32) (main_arg2 : FVec F S4096x64 .f32) (main_arg3 : FVec F S2x4096x8192 .f32) (main_arg4 : FVec F S192x64 .f32) (main_arg5 : FVec F S64 .f32) (main_arg6 : FVec F S192x64 .f32) (main_arg7 : FVec F S64 .f32) (main_arg8 : FVec F S192x64 .f32) (main_arg9 : FVec F S64 .f32) : IVec S_ 1 :=
  let main_v0 : FVec F S1x8192x64 .f32 := Host.absf main_arg0
  let main_cst : FVec F S_ .f32 := constant S_ .f32 0x7F800000#32
  let main_v1 : FVec F S1x8192x64 .f32 := broadcastInDim S1x8192x64 ![] bcast_S_S1x8192x64 main_cst
  let main_v2 : IVec S1x8192x64 1 := cmpf .olt main_v0 main_v1
  let main_c : IVec S_ 1 := constantI S_ 1 1#1
  let main_v3 : IVec S_ 1 := (fun x v => Host.reduce IntOp.andi x v reducesTo_S1x8192x64_S_d0_1_2 h_S_) main_v2 main_c
  let main_v4 : FVec F S1x8192x64 .f32 := Host.absf main_arg1
  let main_cst_0 : FVec F S_ .f32 := constant S_ .f32 0x7F800000#32
  let main_v5 : FVec F S1x8192x64 .f32 := broadcastInDim S1x8192x64 ![] bcast_S_S1x8192x64 main_cst_0
  let main_v6 : IVec S1x8192x64 1 := cmpf .olt main_v4 main_v5
  let main_c_1 : IVec S_ 1 := constantI S_ 1 1#1
  let main_v7 : IVec S_ 1 := (fun x v => Host.reduce IntOp.andi x v reducesTo_S1x8192x64_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S2x4096x8192 .f32 := Host.absf main_arg3
  let main_cst_4 : FVec F S_ .f32 := constant S_ .f32 0x7F800000#32
  let main_v15 : FVec F S2x4096x8192 .f32 := broadcastInDim S2x4096x8192 ![] bcast_S_S2x4096x8192 main_cst_4
  let main_v16 : IVec S2x4096x8192 1 := cmpf .olt main_v14 main_v15
  fn_part1 (F := F) main_arg4 main_arg5 main_arg6 main_arg7 main_arg8 main_arg9 main_v13 main_v16
-- ==== Kernel.lean ====
abbrev S1x8192x64 : Shape := ⟨3, ![1, 8192, 64]⟩
abbrev S4096x64 : Shape := ⟨2, ![4096, 64]⟩
abbrev S2x4096x8192 : Shape := ⟨3, ![2, 4096, 8192]⟩
abbrev S192x64 : Shape := ⟨2, ![192, 64]⟩
abbrev S64 : Shape := ⟨1, ![64]⟩
abbrev S8192x64 : Shape := ⟨2, ![8192, 64]⟩
abbrev S8192x8192 : Shape := ⟨2, ![8192, 8192]⟩
abbrev S1x64 : Shape := ⟨2, ![1, 64]⟩
abbrev S256x4096 : Shape := ⟨2, ![256, 4096]⟩
abbrev S256x64 : Shape := ⟨2, ![256, 64]⟩
abbrev S256x128 : Shape := ⟨2, ![256, 128]⟩
abbrev S256x192 : Shape := ⟨2, ![256, 192]⟩

abbrev nBuf : Space → Nat
  | .hbm => 17
  | .vmem => 17
  | .smem => 0
  | _ => 0

abbrev bufTy : (tb : Table) → Fin (tcTables nBuf tb) → BufTy
  | .hbm, ⟨0, _⟩ => ⟨S1x8192x64, .f32⟩
  | .hbm, ⟨1, _⟩ => ⟨S1x8192x64, .f32⟩
  | .hbm, ⟨2, _⟩ => ⟨S4096x64, .f32⟩
  | .hbm, ⟨3, _⟩ => ⟨S2x4096x8192, .f32⟩
  | .hbm, ⟨4, _⟩ => ⟨S192x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S8192x8192, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4096x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S8192x64, .f32⟩
  | .local _ .vmem, ⟨5, _⟩ => ⟨S8192x64, .f32⟩
  | .local _ .vmem, ⟨6, _⟩ => ⟨S256x64, .f32⟩
  | .local _ .vmem, ⟨7, _⟩ => ⟨S256x64, .f32⟩
  | .local _ .vmem, ⟨8, _⟩ => ⟨S192x64, .f32⟩
  | .local _ .vmem, ⟨9, _⟩ => ⟨S1x64, .f32⟩
  | .local _ .vmem, ⟨10, _⟩ => ⟨S192x64, .f32⟩
  | .local _ .vmem, ⟨11, _⟩ => ⟨S1x64, .f32⟩
  | .local _ .vmem, ⟨12, _⟩ => ⟨S192x64, .f32⟩
  | .local _ .vmem, ⟨13, _⟩ => ⟨S1x64, .f32⟩
  | .local _ .vmem, ⟨14, _⟩ => ⟨S256x64, .f32⟩
  | .local _ .vmem, ⟨15, _⟩ => ⟨S256x64, .f32⟩
  | .local _ .vmem, ⟨16, _⟩ => ⟨S256x128, .f32⟩
  | _, _ => ⟨S1x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg1 : BitVec 32 := BitVec.ofNat 32 (i 1).val
  let c4096_i32 : BitVec 32 := 4096#32
  let v2 : BitVec 32 := Scalar.muli arg1 c4096_i32
  let v3 : Index := Scalar.indexCast v2
  let c0_1 : Index := 0#32
  ![v3.toNat, 0]
def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S192x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  shapeCasts_S1x8192x64_S8192x64 : S1x8192x64.ShapeCasts S8192x64
  shapeCasts_S2x4096x8192_S8192x8192 : S2x4096x8192.ShapeCasts S8192x8192
  shapeCasts_S64_S1x64 : S64.ShapeCasts S1x64
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  h_S4096x64 : 0 < S4096x64.numel
  shapeCasts_S4096x64_S4096x64 : S4096x64.ShapeCasts S4096x64
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x128_S256x64_0_0 : ∀ a, (![0, 0] : Fin 2 → Nat) a + S256x64.size a ≤ S256x128.size a
  h_S256x64 : 0 < S256x64.numel
  inb_S256x128_S256x64_0_64 : ∀ a, (![0, 64] : Fin 2 → Nat) a + S256x64.size a ≤ S256x128.size a
  inb_S256x64_S256x64_0_0 : ∀ a, (![0, 0] : Fin 2 → Nat) a + S256x64.size a ≤ S256x64.size a
  concatenates_S256x64_S256x64_S256x64_S256x192_d1 : Shape.Concatenates [S256x64, S256x64, S256x64] S256x192 1
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  dot_S256x4096_S4096x64_S256x64_1_0_0_1_n_n_wf : DotDims.WF S256x4096 S4096x64 S256x64 [1] [0] [0] [1] [] []
  dot_S256x192_S192x64_S256x64_1_0_0_1_n_n_wf : DotDims.WF S256x192 S192x64 S256x64 [1] [0] [0] [1] [] []
  hrank0 : 0 < grid0.rank
  k0_off1_inb : ∀ i : grid0.Coords, ∀ a, (k0_off1 i) a + S4096x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x8192.size a
  hwx0_0 : ∀ i : grid0.Coords, EltTy.bits .f32 = 32 ∨ (Rect.block (s := S8192x8192) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x8192.size a
  hwx0_1 : ∀ i : grid0.Coords, EltTy.bits .f32 = 32 ∨ (Rect.block (s := S8192x8192) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .f32 = 32 ∨ (Rect.block (s := S8192x64) S8192x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S4096x64.size a
  hwx0_4 : ∀ i : grid0.Coords, EltTy.bits .f32 = 32 ∨ (Rect.block (s := S4096x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x64.size a ≤ S192x64.size a
  hwx0_5 : ∀ i : grid0.Coords, EltTy.bits .f32 = 32 ∨ (Rect.block (s := S192x64) S192x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192x64.size a ≤ S192x64.size a
  hwx0_9 : ∀ i : grid0.Coords, EltTy.bits .f32 = 32 ∨ (Rect.block (s := S192x64) S192x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x64.size a ≤ S4096x64.size a
  hwx0_11 : ∀ i : grid0.Coords, EltTy.bits .f32 = 32 ∨ (Rect.block (s := S4096x64) S256x64.size (cc0_transform_11 i) (hinb0_11 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x192_S192x64_S256x64_1_0_0_1_n_n : DotDims S256x192 S192x64 S256x64 where
  lhsContracting := [1]
  rhsContracting := [0]
  lhsNonContracting := [0]
  rhsNonContracting := [1]
  lhsBatch := []
  rhsBatch := []
  wf := dot_S256x192_S192x64_S256x64_1_0_0_1_n_n_wf

abbrev win0_0 : Pipeline.Window sig grid0 :=
  Pipeline.Window.ofSpec (Memref.whole main_v2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S192x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S192x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond3 i == 1#1) | ⟨_ + 12, h⟩ => absurd h (Nat.not_lt.2 (Nat.le_add_left _ _))

class Facts : Prop extends Facts₀ where

variable [Facts]
-- ==== ReferenceIdeal.lean ====
abbrev S1x8192x64 : Shape := ⟨3, ![1, 8192, 64]⟩
abbrev S4096x64 : Shape := ⟨2, ![4096, 64]⟩
abbrev S2x4096x8192 : Shape := ⟨3, ![2, 4096, 8192]⟩
abbrev S192x64 : Shape := ⟨2, ![192, 64]⟩
abbrev S64 : Shape := ⟨1, ![64]⟩
abbrev S8192x64 : Shape := ⟨2, ![8192, 64]⟩
abbrev S1x4096x8192 : Shape := ⟨3, ![1, 4096, 8192]⟩
abbrev S4096x8192 : Shape := ⟨2, ![4096, 8192]⟩
abbrev S4096x192 : Shape := ⟨2, ![4096, 192]⟩
abbrev S1x64 : Shape := ⟨2, ![1, 64]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S1x8192x64, .f32⟩
  | .hbm, ⟨1, _⟩ => ⟨S1x8192x64, .f32⟩
  | .hbm, ⟨2, _⟩ => ⟨S4096x64, .f32⟩
  | .hbm, ⟨3, _⟩ => ⟨S2x4096x8192, .f32⟩
  | .hbm, ⟨4, _⟩ => ⟨S192x64, .f32⟩
  | .hbm, ⟨5, _⟩ => ⟨S64, .f32⟩
  | .hbm, ⟨6, _⟩ => ⟨S192x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S1x4096x8192, .f32⟩
  | .hbm, ⟨13, _⟩ => ⟨S4096x8192, .f32⟩
  | .hbm, ⟨14, _⟩ => ⟨S1x4096x8192, .f32⟩
  | .hbm, ⟨15, _⟩ => ⟨S4096x8192, .f32⟩
  | .hbm, ⟨16, _⟩ => ⟨S4096x64, .f32⟩
  | .hbm, ⟨17, _⟩ => ⟨S4096x64, .f32⟩
  | .hbm, ⟨18, _⟩ => ⟨S4096x192, .f32⟩
  | .hbm, ⟨19, _⟩ => ⟨S4096x64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096x64, .f32⟩
  | .hbm, ⟨27, _⟩ => ⟨S4096x64, .f32⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S1x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S_, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x192, .f32⟩
  | .hbm, ⟨45, _⟩ => ⟨S4096x64, .f32⟩
  | .hbm, ⟨46, _⟩ => ⟨S1x64, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S_, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4096x64, .f32⟩
  | .hbm, ⟨55, _⟩ => ⟨S4096x64, .f32⟩
  | _, _ => ⟨S1x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  shapeCasts_S1x8192x64_S8192x64 : S1x8192x64.ShapeCasts S8192x64
  slices_S2x4096x8192_S1x4096x8192_0_0_0 : S2x4096x8192.Slices ![0, 0, 0] S1x4096x8192
  shapeCasts_S1x4096x8192_S4096x8192 : S1x4096x8192.ShapeCasts S4096x8192
  slices_S2x4096x8192_S1x4096x8192_1_0_0 : S2x4096x8192.Slices ![1, 0, 0] S1x4096x8192
  concatenates_S4096x64_S4096x64_S4096x64_S4096x192_d1 : Shape.Concatenates [S4096x64, S4096x64, S4096x64] S4096x192 1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  dot_S4096x8192_S8192x64_S4096x64_1_0_0_1_n_n_wf : DotDims.WF S4096x8192 S8192x64 S4096x64 [1] [0] [0] [1] [] []
  dot_S4096x192_S192x64_S4096x64_1_0_0_1_n_n_wf : DotDims.WF S4096x192 S192x64 S4096x64 [1] [0] [0] [1] [] []

variable [Facts₀]

def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf

class Facts : Prop extends Facts₀ where

variable [Facts]
-- ==== Proof.WordFrameBase.lean ====
/-
  (Stated here of the program as printed. Nothing in it depends on what a float is: every lemma holds at any float
  instance, so the same statements hold of the idealized program, word for word.)

  The propagator kernel's run, first part: what the region finds and where its control goes.

  The kernel runs over a grid of 16 row blocks by 2 column chunks, 32 points in row-major order: point t is row
  block t / 2, chunk t % 2. Before the region six reshapes lay the arguments out as the windows read them, and touch
  no argument. Each of the eleven input windows hands the body, at every point, its block of the array as the region
  found it, whether the pipeline fetched it at that point or kept it from the point before. The body has three
  conditionals on the chunk: the first chunk (store the partial products), a later chunk (add them), the last chunk
  (gate and store the output); over two chunks the first holds at the even points and the other two at the odd ones.
  The output window is stored only at the odd points, which are also the only ones that write its block back.
-/
import proofs.«164506_g33844342292619_cont_8to1_b_602_23_alg».proof.Proof.Gen.Kernel.Launch
import proofs.«164506_g33844342292619_cont_8to1_b_602_23_alg».proof.Proof.Gen.Kernel.Skeleton
import proofs.«164506_g33844342292619_cont_8to1_b_602_23_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffer contents when the region is entered: the launch contents after the six reshapes. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The reshapes allocate nothing. -/
theorem hostOps0_fresh : (hostOps0 : List (HloOp τ sig (Elt F))).Forall fun op => op.fresh = ∅ := by
  simp only [List.Forall]; repeat' constructor

/-- The program is the six reshapes followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of the region-entry array at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block of the region-entry array at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block of the region-entry array at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block of the region-entry array at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block of the region-entry array at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the window's block of the region-entry array at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds the window's block of the region-entry array at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds the window's block of the region-entry array at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds the window's block of the region-entry array at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds the window's block of the region-entry array at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds the window's block of the region-entry array at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's conditions, decided over the grid -/

/-- The first conditional's condition: the chunk is the first. -/
abbrev condFirst (i : grid0.Coords) : Prop := (Scalar.cmpi .ne (Scalar.extui (Scalar.cmpi .eq (BitVec.ofNat 32 (i 1).val) 0#32)) 0#32) = 1#1
/-- It holds at the even points. -/
theorem hcondFirst : ∀ t : Fin cfg0.N, condFirst (grid0.coords t) ↔ t.val % 2 = 0 :=
  (by decide +kernel : ∀ t : Fin grid0.N, condFirst (grid0.coords t) ↔ t.val % 2 = 0)

/-- The second conditional's condition: the chunk is a later one. -/
abbrev condLater (i : grid0.Coords) : Prop := (Scalar.cmpi .ne (Scalar.extui (Scalar.cmpi .sgt (BitVec.ofNat 32 (i 1).val) 0#32)) 0#32) = 1#1
/-- It holds at the odd points. -/
theorem hcondLater : ∀ t : Fin cfg0.N, condLater (grid0.coords t) ↔ t.val % 2 = 1 :=
  (by decide +kernel : ∀ t : Fin grid0.N, condLater (grid0.coords t) ↔ t.val % 2 = 1)

/-- The third conditional's condition: the chunk is the last. -/
abbrev condLast (i : grid0.Coords) : Prop := k0_cond3 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-! ## Where the output window is idle -/

/-- At the even points the body stores nothing into the output window: the configuration calls it idle there, -/
theorem idleOut_even : ∀ t : Fin cfg0.N, t.val % 2 = 0 → cfg0.idle 11 (grid0.coords t) = true := by decide +kernel
/-- and the pipeline does not write its block back there. -/
theorem noFlushOut_even : ∀ t : Fin cfg0.N, t.val % 2 = 0 → (cfg0.win 11).flush t = false := by decide +kernel
/-- At the odd points it is live. -/
theorem liveOut_odd : ∀ t : Fin cfg0.N, t.val % 2 = 1 → cfg0.idle 11 (grid0.coords t) = false := by decide +kernel

/-! ## The staging memrefs and the scratch -/

/-- The scratch accumulator: a whole buffer of the kernel's own, 256 rows of 128. -/
abbrev scM : Memref sig .tc .vmem S256x128 .f32 := Memref.whole cc0_scratch0
/-- The scratch as a view: what it holds is stated through it. -/
abbrev VS : View sig .tc .vmem S256x128 .f32 := (scM : Memref sig .tc .vmem S256x128 .f32).view
/-- One staging buffer of the output window, through which its contents are stated. -/
abbrev VO : View sig .tc .vmem S256x64 .f32 := (Memref.whole cc0_stg11_0 : Memref sig .tc .vmem S256x64 .f32).view

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Gru

end
-- ==== Proof.WordRunFirst.lean ====
/-
  (Stated here of the program as printed. Nothing in it depends on what a float is: every lemma holds at any float
  instance, so the same statements hold of the idealized program, word for word.)

  The body at the first chunk of a row block. It loads the two adjacency blocks and the first 4096 rows of the two
  neighbour-state arrays, and stores the two partial products side by side into the scratch accumulator, covering
  it; it touches nothing else (the load of the scratch before the store is dead). Stated on any whole memrefs at
  given contents: the scratch ends with the stores' pieces written, which the run finds.
-/
import proofs.«164506_g33844342292619_cont_8to1_b_602_23_alg».proof.Proof.WordFrameBase

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the scratch at the first chunk, with the proof that from the two adjacency
    blocks at `x0`, `x1`, the two state arrays at `x2`, `x3` and the scratch at anything, the body runs to the
    continuation holding those four as they were and the scratch with the pieces written. -/
noncomputable def runFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8192x64 .f32) (harg4 : arg4.IsWhole) (arg5 : Memref sig .tc .vmem S8192x64 .f32) (harg5 : arg5.IsWhole) (arg6 : Memref sig .tc .vmem S256x64 .f32) (harg6 : arg6.IsWhole) (arg7 : Memref sig .tc .vmem S192x64 .f32) (harg7 : arg7.IsWhole) (arg8 : Memref sig .tc .vmem S1x64 .f32) (harg8 : arg8.IsWhole) (arg9 : Memref sig .tc .vmem S192x64 .f32) (harg9 : arg9.IsWhole) (arg10 : Memref sig .tc .vmem S1x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S256x64 .f32) (harg13 : arg13.IsWhole) (arg14 : Memref sig .tc .vmem S256x128 .f32) (harg14 : arg14.IsWhole)
    (hc1 : condFirst i) (hc2 : ¬condLater i) (hc3 : ¬condLast i)
    (x0 x1 : Vec F S256x4096 .f32) (x2 x3 : Vec F S8192x64 .f32) :
    { LS : List (View.Piece (Elt F) S256x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg14 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg14.view.loc (c : Thread nD τ) ↦[arg14.view.set]{fullShare} arg14.view.writes (Elt F) f LS)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1
    obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Gru

end
-- ==== Proof.WordRunLast.lean ====
/-
  (Stated here of the program as printed. Nothing in it depends on what a float is: every lemma holds at any float
  instance, so the same statements hold of the idealized program, word for word.)

  The body at the last chunk of a row block. It loads the two adjacency blocks and the last 4096 rows of the two
  neighbour-state arrays, adds the two partial products side by side to what the scratch accumulator holds, and
  stores the sum back, covering the scratch; it then reads the accumulator's two halves, the row block of node
  states, the three gates' weights and biases, and stores the gated update into the output window's buffer, covering
  it (the loads of the scratch and of the output buffer before their stores are dead). Stated on any whole memrefs
  at given contents: the scratch and the output buffer end with the stores' pieces written, which the run finds.
-/
import proofs.«164506_g33844342292619_cont_8to1_b_602_23_alg».proof.Proof.WordRunFirst

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the scratch at the last chunk, with the
    proof that from the eleven input buffers at `x0` … `x10`, the output buffer at anything and the scratch at `xs`,
    the body runs to the continuation holding the inputs as they were and the two written buffers with their pieces. -/
noncomputable def runLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8192x64 .f32) (harg4 : arg4.IsWhole) (arg5 : Memref sig .tc .vmem S8192x64 .f32) (harg5 : arg5.IsWhole) (arg6 : Memref sig .tc .vmem S256x64 .f32) (harg6 : arg6.IsWhole) (arg7 : Memref sig .tc .vmem S192x64 .f32) (harg7 : arg7.IsWhole) (arg8 : Memref sig .tc .vmem S1x64 .f32) (harg8 : arg8.IsWhole) (arg9 : Memref sig .tc .vmem S192x64 .f32) (harg9 : arg9.IsWhole) (arg10 : Memref sig .tc .vmem S1x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S256x64 .f32) (harg13 : arg13.IsWhole) (arg14 : Memref sig .tc .vmem S256x128 .f32) (harg14 : arg14.IsWhole)
    (hc1 : ¬condFirst i) (hc2 : condLater i) (hc3 : condLast i)
    (x0 : Vec F S256x4096 .f32) (x1 : Vec F S256x4096 .f32) (x2 : Vec F S8192x64 .f32) (x3 : Vec F S8192x64 .f32) (x4 : Vec F S256x64 .f32) (x5 : Vec F S192x64 .f32) (x6 : Vec F S1x64 .f32) (x7 : Vec F S192x64 .f32) (x8 : Vec F S1x64 .f32) (x9 : Vec F S192x64 .f32) (x10 : Vec F S1x64 .f32) (xs : Vec F S256x128 .f32) :
    Σ' (LO : List (View.Piece (Elt F) S256x64 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ (∃ f, arg13.view.loc (c : Thread nD τ) ↦[arg13.view.set]{fullShare} arg13.view.writes (Elt F) f LO)
                ∗ (∃ f, arg14.view.loc (c : Thread nD τ) ↦[arg14.view.set]{fullShare} arg14.view.writes (Elt F) f LS)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg14.eq_unread hfS
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HO]
    · iexists _; iexact HO
    iexists _; iexact HS

end Cert.Kernel.Gru

end
-- ==== Proof.WordFrameData.lean ====
/-
  (Stated here of the program as printed. Nothing in it depends on what a float is: every lemma holds at any float
  instance, so the same statements hold of the idealized program, word for word.)

  The propagator kernel's proof data: what the scratch accumulator and the output window's buffer hold after each
  grid point, and that the body, run at any point on what the pipeline hands it, leaves exactly that.

  At an even point (the first chunk of a row block) the scratch ends with the two partial products of that chunk,
  whatever it held; the output window is idle. At an odd point (the last chunk) the scratch ends with what the even
  point before left plus this chunk's partial products, and the output window's buffer with the gated update computed
  from that sum, the row block of node states and the gates' weights and biases. Between points the kernel keeps
  only the scratch; every input window's buffer holds its block again. The generator register is not used.
-/
import proofs.«164506_g33844342292619_cont_8to1_b_602_23_alg».proof.Proof.WordRunLast
import Idealize.ShloMosaic.Lib.Ring

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline calls the body with at a point -/

abbrev ms0 (t : Fin cfg0.N) : Memref sig .tc .vmem S256x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S192x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S192x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S192x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x64 .f32 := win0_11.stage (cfg0.slots t 11)
abbrev hs11 (t : Fin cfg0.N) : (ms11 t).IsWhole := hstage0_11 ((cfg0.slots t 11).cast nbuf0_11)

/-! ## What each case leaves -/

/-- The first chunk's run at an even point, on the point's memrefs and input blocks. -/
def piecesFirst (c : Dev nD) (t : Fin cfg0.N) (he : t.val % 2 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    ((hcondFirst t).mpr he) (fun h => by have := (hcondLater t).mp h; omega) (fun h => by have := (hcondLast t).mp h; omega)
    (iblk m c 0 t) (iblk m c 1 t) (iblk m c 2 t) (iblk m c 3 t)

/-- Its store covers the scratch. -/
theorem coverFirst (c : Dev nD) (t : Fin cfg0.N) (he : t.val % 2 = 0) (y : S256x128.Idx) :
    ∃ pc ∈ (piecesFirst m c t he).1, y ∈ pc.1.set :=
  View.cover_of_tiledL (piecesFirst m c t he).1 S256x128.size (by sl_kernel_rfl) y

/-- What an even point leaves in the scratch: its pieces read back. -/
def scrEven (c : Dev nD) (t : Fin cfg0.N) (he : t.val % 2 = 0) : Vec F S256x128 .f32 :=
  VS.read (Elt F) (VS.writes (Elt F) VS.junk (piecesFirst m c t he).1)

/-- The point before an odd point; it is even. -/
def prev (t : Fin cfg0.N) (ho : t.val % 2 = 1) : Fin cfg0.N := ⟨t.val - 1, by have := t.isLt; omega⟩
theorem prev_even (t : Fin cfg0.N) (ho : t.val % 2 = 1) : (prev t ho).val % 2 = 0 := by
  show (t.val - 1) % 2 = 0; omega

/-- The last chunk's run at an odd point, on the point's memrefs and input blocks, the scratch at what the even
    point before left. -/
def piecesLast (c : Dev nD) (t : Fin cfg0.N) (ho : t.val % 2 = 1) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    (fun h => by have := (hcondFirst t).mp h; omega) ((hcondLater t).mpr ho) ((hcondLast t).mpr ho)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (scrEven m c (prev t ho) (prev_even t ho))

/-- Its stores cover the output window's buffer -/
theorem coverLastOut (c : Dev nD) (t : Fin cfg0.N) (ho : t.val % 2 = 1) (y : S256x64.Idx) :
    ∃ pc ∈ (piecesLast m c t ho).1, y ∈ pc.1.set :=
  View.cover_of_tiledL (piecesLast m c t ho).1 S256x64.size (by sl_kernel_rfl) y
/-- and the scratch. -/
theorem coverLastScr (c : Dev nD) (t : Fin cfg0.N) (ho : t.val % 2 = 1) (y : S256x128.Idx) :
    ∃ pc ∈ (piecesLast m c t ho).2.1, y ∈ pc.1.set :=
  View.cover_of_tiledL (piecesLast m c t ho).2.1 S256x128.size (by sl_kernel_rfl) y

/-- What an odd point leaves in the output window's buffer -/
def outOdd (c : Dev nD) (t : Fin cfg0.N) (ho : t.val % 2 = 1) : Vec F S256x64 .f32 :=
  VO.read (Elt F) (VO.writes (Elt F) VO.junk (piecesLast m c t ho).1)
/-- and in the scratch. -/
def scrOdd (c : Dev nD) (t : Fin cfg0.N) (ho : t.val % 2 = 1) : Vec F S256x128 .f32 :=
  VS.read (Elt F) (VS.writes (Elt F) VS.junk (piecesLast m c t ho).2.1)

/-! ## Point by point -/

/-- The scratch after point `t`. -/
def scrAt (c : Dev nD) (t : Fin cfg0.N) : Vec F S256x128 .f32 :=
  if he : t.val % 2 = 0 then scrEven m c t he else scrOdd m c t (Nat.mod_two_ne_zero.mp he)

theorem scrAt_even (c : Dev nD) (t : Fin cfg0.N) (he : t.val % 2 = 0) : scrAt m c t = scrEven m c t he := dif_pos he
theorem scrAt_odd (c : Dev nD) (t : Fin cfg0.N) (ho : t.val % 2 = 1) : scrAt m c t = scrOdd m c t ho :=
  (dif_neg (by omega : ¬ t.val % 2 = 0)).trans rfl

/-- The output window's buffer after point `t`: at an odd point what the body stored; at an even point the window is
    idle and nothing consults this. -/
def outAt (c : Dev nD) (t : Fin cfg0.N) : Vec F S256x64 .f32 :=
  if ho : t.val % 2 = 1 then outOdd m c t ho else VO.read (Elt F) VO.junk

theorem outAt_odd (c : Dev nD) (t : Fin cfg0.N) (ho : t.val % 2 = 1) : outAt m c t = outOdd m c t ho := dif_pos ho

/-- The core's scoped buffers that are no staging buffer are the scratch alone, held at some contents. -/
theorem scopedRest_scr (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The region invariant before position `n`: before the first point the scratch at anything; afterwards the scratch
    at what the point before left. The kernel keeps nothing else between points. -/
def PhiS (c : Dev nD) : (n : ℕ) → n ≤ cfg0.N → sProp 𝕄
  | 0, _ => iprop(∃ d, owns (c : Thread nD τ) scM fullShare d)
  | n + 1, hn => owns (c : Thread nD τ) scM fullShare (scrAt m c ⟨n, hn⟩)

theorem PhiS_succ (c : Dev nD) (n : ℕ) (hn : n < cfg0.N) :
    PhiS m c (n + 1) hn = owns (c : Thread nD τ) scM fullShare (scrAt m c ⟨n, hn⟩) := rfl

theorem PhiS_pos (c : Dev nD) (n : ℕ) (h : n ≤ cfg0.N) (hz : n ≠ 0) :
    PhiS m c n h = owns (c : Thread nD τ) scM fullShare (scrAt m c ⟨n - 1, by omega⟩) := by
  cases n with
  | zero => exact absurd rfl hz
  | succ n => rfl

/-- At every position the invariant holds the scratch at some contents. -/
theorem PhiS_any (c : Dev nD) (n : ℕ) (h : n ≤ cfg0.N) :
    PhiS m c n h ⊢ iprop(∃ d, owns (c : Thread nD τ) scM fullShare d) := by
  cases n with
  | zero => exact Idealize.SL.BI.Entails.refl _
  | succ n =>
    rw [PhiS_succ]
    iintro HS
    iexists _; iexact HS

/-! ## The pipeline's proof data -/

/-- The proof data on core `c`: the arrays as the region finds them; after the body each input window's buffer at its
    block and the output's at `outAt`; the invariant `PhiS`; nothing owed. The adjacency array is read by two windows,
    which hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

theorem leavesIn0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after0]
theorem leavesIn1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after1]
theorem leavesIn2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after2]
theorem leavesIn3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after3]
theorem leavesIn4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after4]
theorem leavesIn5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after5]
theorem leavesIn6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl, after6]
theorem leavesIn7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl, after7]
theorem leavesIn8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl, after8]
theorem leavesIn9 (c : Dev nD) (t : Fin cfg0.N) :
    (dats m 0 c).leavesExact 9 t = owns (c : Thread nD τ) (ms9 t) fullShare (iblk m c 9 t) := by
  unfold Dat.leavesExact; rw [show cfg0.idle 9 (grid0.coords t) = false from rfl, after9]
theorem leavesIn10 (c : Dev nD) (t : Fin cfg0.N) :
    (dats m 0 c).leavesExact 10 t = owns (c : Thread nD τ) (ms10 t) fullShare (iblk m c 10 t) := by
  unfold Dat.leavesExact; rw [show cfg0.idle 10 (grid0.coords t) = false from rfl, after10]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point. Every input buffer holds its block. At an even point the first chunk's run applies: the
    scratch, at whatever the invariant holds it at, ends at that point's contents, and the idle output buffer is
    handed back as found. At an odd point the invariant holds the scratch at what the even point before left, the
    last chunk's run applies, and the scratch and the output buffer end at that point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5, leavesIn6, leavesIn7, leavesIn8, leavesIn9, leavesIn10]
  by_cases he : t.val % 2 = 0
  · rw [Dat.leavesExact_idle (dats m 0 c) 11 t (idleOut_even t he) (noFlushOut_even t he)]
    rw [scrAt_even m c t he]
    unfold scrEven
    rw [Phi_castSucc m c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HS := (PhiS_any m c t.val (Nat.le_of_lt t.isLt)) $$ HΦ
    iapply ((piecesFirst m c t he).2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS]
    · unfold owns; iexists _; isplitr
      swap; · iexact HS
      ipureintro; exact View.read_writes_of_cover _ _ _ _ _ (coverFirst m c t he)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · have ho : t.val % 2 = 1 := Nat.mod_two_ne_zero.mp he
    have hz : t.val ≠ 0 := by omega
    rw [show (dats m 0 c).leavesExact 11 t = owns (c : Thread nD τ) (ms11 t) fullShare ((dats m 0 c).after 11 t) from by
      unfold Dat.leavesExact; rw [liveOut_odd t ho], after11, outAt_odd m c t ho]
    rw [scrAt_odd m c t ho]
    unfold outOdd scrOdd
    rw [Phi_castSucc m c t, PhiS_pos m c _ _ hz, scrAt_even m c ⟨t.val - 1, by have := t.isLt; omega⟩ (prev_even t ho)]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((piecesLast m c t ho).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS]; · iexact HS
    iintro ⟨H0, H1, H2, H3, H4, H5, H6, H7, H8, H9, H10, ⟨%eo, H11⟩, ⟨%es, HS⟩⟩
    isplitl [HS]
    · unfold owns; iexists _; isplitr
      swap; · iexact HS
      ipureintro; exact View.read_writes_of_cover _ _ _ _ _ (coverLastScr m c t ho)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; exact View.read_writes_of_cover _ _ _ _ _ (coverLastOut m c t ho)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scoped rest the launch hands the region is the invariant before the first point. -/
theorem hin (c : Dev nD) : Pipeline.scopedRest spec0 c ⊢ (dats m 0 c).Φ 0 := by
  rw [scopedRest_scr, show (dats m 0 c).Φ 0 = PhiS m c 0 (Nat.zero_le _) from rfl]
  exact Idealize.SL.BI.Entails.refl _

/-- After the last point the invariant gives it back: the scratch's named contents are forgotten. -/
theorem hout (c : Dev nD) : (dats m 0 c).Φ (Fin.last cfg0.N) ⊢ Pipeline.scopedRest spec0 c := by
  rw [scopedRest_scr, show (dats m 0 c).Φ (Fin.last cfg0.N) = PhiS m c (Fin.last cfg0.N).val (Nat.le_of_lt_succ (Fin.last cfg0.N).isLt) from rfl]
  exact PhiS_any m c _ _

end Cert.Kernel.Gru

end
-- ==== Proof.WordFrameRun.lean ====
/-
  (Stated here of the program as printed. Nothing in it depends on what a float is: every lemma holds at any float
  instance, so the same statements hold of the idealized program, word for word.)

  The propagator kernel's run: every weakly fair execution terminates without a fault, each array a window stages
  ends at what the write-backs leave in it, and every other buffer of the core ends as the region found it.

  The adjacency array is handed to the kernel through two input windows (the rows of its first and of its second
  plane). Both only read it, so the buffer's full share is split into its two halves, one per window; every other
  array goes to its one window whole. The kernel has no semaphore of its own and keeps only its scratch between
  points, so the region's invariant is entered from, and returns to, the scratch at some contents.
-/
import proofs.«164506_g33844342292619_cont_8to1_b_602_23_alg».proof.Proof.WordFrameData

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- A window's array at entry, as the proof data hold it, is a plain points-to of the buffer behind it at the
    region-entry contents, at the window's share. -/
theorem arr_pt (c : Dev nD) (w : Fin cfg0.W) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{(dats m 0 c).share w} V m c (Pipeline.arrRef spec0 w)) := by
  rw [(arr_whole0 w).set_eq_univ]; rfl

/-- The eleven distinct buffers behind the twelve windows' arrays, each whole at the full share, are the proof data's
    arrays at entry: the adjacency buffer's two halves go to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_v2) ↦{fullShare} V m c main_v2) ∗ (((c : Thread nD τ).loc main_v0) ↦{fullShare} V m c main_v0) ∗ (((c : Thread nD τ).loc main_v1) ↦{fullShare} V m c main_v1) ∗ (((c : Thread nD τ).loc main_arg2) ↦{fullShare} V m c main_arg2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_arg8) ↦{fullShare} V m c main_arg8) ∗ (((c : Thread nD τ).loc main_v5) ↦{fullShare} V m c main_v5) ∗ (((c : Thread nD τ).loc main_v6) ↦{fullShare} V m c main_v6)) := by
    unfold Pipeline.arrBufs
    exact bigSep_eq_bigSepL_of_eq [main_v2, main_v0, main_v1, main_arg2, main_arg4, main_v3, main_arg6, main_v4, main_arg8, main_v5, main_v6] (by decide) (by decide) _
  rw [e]
  unfold Dat.arrays
  rw [bigSep_W0]
  iintro ⟨HA, H2, H3, H4, H5, H6, H7, H8, H9, H10, H11⟩
  ihave HA' := (pointsTo_share (PosShare.mem_left_op_right fullShare)).1 $$ HA
  icases HA' with ⟨HA0, HA1⟩
  isplitl [HA0]; · rw [arr_pt m c 0]; iexact HA0
  isplitl [HA1]; · rw [arr_pt m c 1]; iexact HA1
  isplitl [H2]; · rw [arr_pt m c 2]; iexact H2
  isplitl [H3]; · rw [arr_pt m c 3]; iexact H3
  isplitl [H4]; · rw [arr_pt m c 4]; iexact H4
  isplitl [H5]; · rw [arr_pt m c 5]; iexact H5
  isplitl [H6]; · rw [arr_pt m c 6]; iexact H6
  isplitl [H7]; · rw [arr_pt m c 7]; iexact H7
  isplitl [H8]; · rw [arr_pt m c 8]; iexact H8
  isplitl [H9]; · rw [arr_pt m c 9]; iexact H9
  isplitl [H10]; · rw [arr_pt m c 10]; iexact H10
  rw [arr_pt m c 11]; iexact H11

/-! ## The run -/

/-- What the run ends in: every window's array at what the write-backs leave (`Dat.arrAt` after all 32 points), every
    other unscoped buffer as the region found it. -/
def Post (r : PUnit × MemSt nD τ sig (Elt F)) : Prop :=
  ∀ c : Dev nD, (∀ w, r.2.mem ((cfg0.spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with zero counters every weakly fair execution of the program terminates, nothing faulting, in a
    state satisfying `Post`. -/
theorem run_main : θ_run defs (onTc (τ := τ) (main (F := F))) ⟨m, fun _ => 0, ρ⟩ (Post m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj))
    (hu₀ := Idealize.SL.BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-! ## The arguments end unchanged -/

/-- The reshapes before the region write only their own results: each argument is, at the region's entry, what the
    launch memory holds. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results
theorem V_arg4 (c : Dev nD) : V m c main_arg4 = m ((c : Thread nD τ).loc main_arg4) := by
  dsimp only [V, V0, hostOps0]; after_results
theorem V_arg5 (c : Dev nD) : V m c main_arg5 = m ((c : Thread nD τ).loc main_arg5) := by
  dsimp only [V, V0, hostOps0]; after_results
theorem V_arg6 (c : Dev nD) : V m c main_arg6 = m ((c : Thread nD τ).loc main_arg6) := by
  dsimp only [V, V0, hostOps0]; after_results
theorem V_arg7 (c : Dev nD) : V m c main_arg7 = m ((c : Thread nD τ).loc main_arg7) := by
  dsimp only [V, V0, hostOps0]; after_results
theorem V_arg8 (c : Dev nD) : V m c main_arg8 = m ((c : Thread nD τ).loc main_arg8) := by
  dsimp only [V, V0, hostOps0]; after_results
theorem V_arg9 (c : Dev nD) : V m c main_arg9 = m ((c : Thread nD τ).loc main_arg9) := by
  dsimp only [V, V0, hostOps0]; after_results

/-- The frame: the program runs, and its ten argument arrays end as they began. The four a window stages are inputs,
    never written; the other six bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_arg0 (Pipeline.mem_restRefs_of main_arg0 rfl (by decide))).trans (V_arg0 m c),
     ((h c).2 main_arg1 (Pipeline.mem_restRefs_of main_arg1 rfl (by decide))).trans (V_arg1 m c),
     ((h c).1 4).trans (((dats m 0 c).arrAt_in 4 rfl _).trans ((A_eq m c 4).trans (V_arg2 m c))),
     ((h c).2 main_arg3 (Pipeline.mem_restRefs_of main_arg3 rfl (by decide))).trans (V_arg3 m c),
     ((h c).1 5).trans (((dats m 0 c).arrAt_in 5 rfl _).trans ((A_eq m c 5).trans (V_arg4 m c))),
     ((h c).2 main_arg5 (Pipeline.mem_restRefs_of main_arg5 rfl (by decide))).trans (V_arg5 m c),
     ((h c).1 7).trans (((dats m 0 c).arrAt_in 7 rfl _).trans ((A_eq m c 7).trans (V_arg6 m c))),
     ((h c).2 main_arg7 (Pipeline.mem_restRefs_of main_arg7 rfl (by decide))).trans (V_arg7 m c),
     ((h c).1 9).trans (((dats m 0 c).arrAt_in 9 rfl _).trans ((A_eq m c 9).trans (V_arg8 m c))),
     ((h c).2 main_arg9 (Pipeline.mem_restRefs_of main_arg9 rfl (by decide))).trans (V_arg9 m c)⟩) (run_main m ρ)

end Cert.Kernel.Gru

end
-- ==== Proof.FrameBase.lean ====
/-
  The propagator kernel's run, first part: what the region finds and where its control goes.

  The kernel runs over a grid of 16 row blocks by 2 column chunks, 32 points in row-major order: point t is row
  block t / 2, chunk t % 2. Before the region six reshapes lay the arguments out as the windows read them, and touch
  no argument. Each of the eleven input windows hands the body, at every point, its block of the array as the region
  found it, whether the pipeline fetched it at that point or kept it from the point before. The body has three
  conditionals on the chunk: the first chunk (store the partial products), a later chunk (add them), the last chunk
  (gate and store the output); over two chunks the first holds at the even points and the other two at the odd ones.
  The output window is stored only at the odd points, which are also the only ones that write its block back.
-/
import proofs.«164506_g33844342292619_cont_8to1_b_602_23_alg».proof.Proof.Gen.KernelIdeal.Launch
import proofs.«164506_g33844342292619_cont_8to1_b_602_23_alg».proof.Proof.Gen.KernelIdeal.Skeleton
import proofs.«164506_g33844342292619_cont_8to1_b_602_23_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffer contents when the region is entered: the launch contents after the six reshapes. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The reshapes allocate nothing. -/
theorem hostOps0_fresh : (hostOps0 : List (HloOp τ sig (Elt F))).Forall fun op => op.fresh = ∅ := by
  simp only [List.Forall]; repeat' constructor

/-- The program is the six reshapes followed by the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of the region-entry array at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block of the region-entry array at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block of the region-entry array at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block of the region-entry array at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block of the region-entry array at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the window's block of the region-entry array at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds the window's block of the region-entry array at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds the window's block of the region-entry array at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds the window's block of the region-entry array at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds the window's block of the region-entry array at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds the window's block of the region-entry array at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body's conditions, decided over the grid -/

/-- The first conditional's condition: the chunk is the first. -/
abbrev condFirst (i : grid0.Coords) : Prop := (Scalar.cmpi .ne (Scalar.extui (Scalar.cmpi .eq (BitVec.ofNat 32 (i 1).val) 0#32)) 0#32) = 1#1
/-- It holds at the even points. -/
theorem hcondFirst : ∀ t : Fin cfg0.N, condFirst (grid0.coords t) ↔ t.val % 2 = 0 :=
  (by decide +kernel : ∀ t : Fin grid0.N, condFirst (grid0.coords t) ↔ t.val % 2 = 0)

/-- The second conditional's condition: the chunk is a later one. -/
abbrev condLater (i : grid0.Coords) : Prop := (Scalar.cmpi .ne (Scalar.extui (Scalar.cmpi .sgt (BitVec.ofNat 32 (i 1).val) 0#32)) 0#32) = 1#1
/-- It holds at the odd points. -/
theorem hcondLater : ∀ t : Fin cfg0.N, condLater (grid0.coords t) ↔ t.val % 2 = 1 :=
  (by decide +kernel : ∀ t : Fin grid0.N, condLater (grid0.coords t) ↔ t.val % 2 = 1)

/-- The third conditional's condition: the chunk is the last. -/
abbrev condLast (i : grid0.Coords) : Prop := k0_cond3 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-! ## Where the output window is idle -/

/-- At the even points the body stores nothing into the output window: the configuration calls it idle there, -/
theorem idleOut_even : ∀ t : Fin cfg0.N, t.val % 2 = 0 → cfg0.idle 11 (grid0.coords t) = true := by decide +kernel
/-- and the pipeline does not write its block back there. -/
theorem noFlushOut_even : ∀ t : Fin cfg0.N, t.val % 2 = 0 → (cfg0.win 11).flush t = false := by decide +kernel
/-- At the odd points it is live. -/
theorem liveOut_odd : ∀ t : Fin cfg0.N, t.val % 2 = 1 → cfg0.idle 11 (grid0.coords t) = false := by decide +kernel

/-! ## The staging memrefs and the scratch -/

/-- The scratch accumulator: a whole buffer of the kernel's own, 256 rows of 128. -/
abbrev scM : Memref sig .tc .vmem S256x128 .f32 := Memref.whole cc0_scratch0
/-- The scratch as a view: what it holds is stated through it. -/
abbrev VS : View sig .tc .vmem S256x128 .f32 := (scM : Memref sig .tc .vmem S256x128 .f32).view
/-- One staging buffer of the output window, through which its contents are stated. -/
abbrev VO : View sig .tc .vmem S256x64 .f32 := (Memref.whole cc0_stg11_0 : Memref sig .tc .vmem S256x64 .f32).view

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Gru

end
-- ==== Proof.RunFirst.lean ====
/-
  The body at the first chunk of a row block. It loads the two adjacency blocks and the first 4096 rows of the two
  neighbour-state arrays, and stores the two partial products side by side into the scratch accumulator, covering
  it; it touches nothing else (the load of the scratch before the store is dead). Stated on any whole memrefs at
  given contents: the scratch ends with the stores' pieces written, which the run finds.
-/
import proofs.«164506_g33844342292619_cont_8to1_b_602_23_alg».proof.Proof.FrameBase

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the scratch at the first chunk, with the proof that from the two adjacency
    blocks at `x0`, `x1`, the two state arrays at `x2`, `x3` and the scratch at anything, the body runs to the
    continuation holding those four as they were and the scratch with the pieces written. -/
noncomputable def runFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8192x64 .f32) (harg4 : arg4.IsWhole) (arg5 : Memref sig .tc .vmem S8192x64 .f32) (harg5 : arg5.IsWhole) (arg6 : Memref sig .tc .vmem S256x64 .f32) (harg6 : arg6.IsWhole) (arg7 : Memref sig .tc .vmem S192x64 .f32) (harg7 : arg7.IsWhole) (arg8 : Memref sig .tc .vmem S1x64 .f32) (harg8 : arg8.IsWhole) (arg9 : Memref sig .tc .vmem S192x64 .f32) (harg9 : arg9.IsWhole) (arg10 : Memref sig .tc .vmem S1x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S256x64 .f32) (harg13 : arg13.IsWhole) (arg14 : Memref sig .tc .vmem S256x128 .f32) (harg14 : arg14.IsWhole)
    (hc1 : condFirst i) (hc2 : ¬condLater i) (hc3 : ¬condLast i)
    (x0 x1 : Vec F S256x4096 .f32) (x2 x3 : Vec F S8192x64 .f32) :
    { LS : List (View.Piece (Elt F) S256x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg14 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg14.view.loc (c : Thread nD τ) ↦[arg14.view.set]{fullShare} arg14.view.writes (Elt F) f LS)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1
    obtain rfl := harg4.eq_unread hf2; obtain rfl := harg5.eq_unread hf3
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Gru

end
-- ==== Proof.RunLast.lean ====
/-
  The body at the last chunk of a row block. It loads the two adjacency blocks and the last 4096 rows of the two
  neighbour-state arrays, adds the two partial products side by side to what the scratch accumulator holds, and
  stores the sum back, covering the scratch; it then reads the accumulator's two halves, the row block of node
  states, the three gates' weights and biases, and stores the gated update into the output window's buffer, covering
  it (the loads of the scratch and of the output buffer before their stores are dead). Stated on any whole memrefs
  at given contents: the scratch and the output buffer end with the stores' pieces written, which the run finds.
-/
import proofs.«164506_g33844342292619_cont_8to1_b_602_23_alg».proof.Proof.RunFirst

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output window's buffer and in the scratch at the last chunk, with the
    proof that from the eleven input buffers at `x0` … `x10`, the output buffer at anything and the scratch at `xs`,
    the body runs to the continuation holding the inputs as they were and the two written buffers with their pieces. -/
noncomputable def runLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S8192x64 .f32) (harg4 : arg4.IsWhole) (arg5 : Memref sig .tc .vmem S8192x64 .f32) (harg5 : arg5.IsWhole) (arg6 : Memref sig .tc .vmem S256x64 .f32) (harg6 : arg6.IsWhole) (arg7 : Memref sig .tc .vmem S192x64 .f32) (harg7 : arg7.IsWhole) (arg8 : Memref sig .tc .vmem S1x64 .f32) (harg8 : arg8.IsWhole) (arg9 : Memref sig .tc .vmem S192x64 .f32) (harg9 : arg9.IsWhole) (arg10 : Memref sig .tc .vmem S1x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S256x64 .f32) (harg13 : arg13.IsWhole) (arg14 : Memref sig .tc .vmem S256x128 .f32) (harg14 : arg14.IsWhole)
    (hc1 : ¬condFirst i) (hc2 : condLater i) (hc3 : condLast i)
    (x0 : Vec F S256x4096 .f32) (x1 : Vec F S256x4096 .f32) (x2 : Vec F S8192x64 .f32) (x3 : Vec F S8192x64 .f32) (x4 : Vec F S256x64 .f32) (x5 : Vec F S192x64 .f32) (x6 : Vec F S1x64 .f32) (x7 : Vec F S192x64 .f32) (x8 : Vec F S1x64 .f32) (x9 : Vec F S192x64 .f32) (x10 : Vec F S1x64 .f32) (xs : Vec F S256x128 .f32) :
    Σ' (LO : List (View.Piece (Elt F) S256x64 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ (∃ f, arg13.view.loc (c : Thread nD τ) ↦[arg13.view.set]{fullShare} arg13.view.writes (Elt F) f LO)
                ∗ (∃ f, arg14.view.loc (c : Thread nD τ) ↦[arg14.view.set]{fullShare} arg14.view.writes (Elt F) f LS)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%dO, %fO, -, HO⟩, ⟨%fS, %hfS, HS⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg14.eq_unread hfS
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HO]
    · iexists _; iexact HO
    iexists _; iexact HS

end Cert.KernelIdeal.Gru

end
-- ==== Proof.FrameData.lean ====
/-
  The propagator kernel's proof data: what the scratch accumulator and the output window's buffer hold after each
  grid point, and that the body, run at any point on what the pipeline hands it, leaves exactly that.

  At an even point (the first chunk of a row block) the scratch ends with the two partial products of that chunk,
  whatever it held; the output window is idle. At an odd point (the last chunk) the scratch ends with what the even
  point before left plus this chunk's partial products, and the output window's buffer with the gated update computed
  from that sum, the row block of node states and the gates' weights and biases. Between points the kernel keeps
  only the scratch; every input window's buffer holds its block again. The generator register is not used.
-/
import proofs.«164506_g33844342292619_cont_8to1_b_602_23_alg».proof.Proof.RunLast
import Idealize.ShloMosaic.Lib.Ring

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline calls the body with at a point -/

abbrev ms0 (t : Fin cfg0.N) : Memref sig .tc .vmem S256x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S192x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S192x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S192x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x64 .f32 := win0_11.stage (cfg0.slots t 11)
abbrev hs11 (t : Fin cfg0.N) : (ms11 t).IsWhole := hstage0_11 ((cfg0.slots t 11).cast nbuf0_11)

/-! ## What each case leaves -/

/-- The first chunk's run at an even point, on the point's memrefs and input blocks. -/
def piecesFirst (c : Dev nD) (t : Fin cfg0.N) (he : t.val % 2 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    ((hcondFirst t).mpr he) (fun h => by have := (hcondLater t).mp h; omega) (fun h => by have := (hcondLast t).mp h; omega)
    (iblk m c 0 t) (iblk m c 1 t) (iblk m c 2 t) (iblk m c 3 t)

/-- Its store covers the scratch. -/
theorem coverFirst (c : Dev nD) (t : Fin cfg0.N) (he : t.val % 2 = 0) (y : S256x128.Idx) :
    ∃ pc ∈ (piecesFirst m c t he).1, y ∈ pc.1.set :=
  View.cover_of_tiledL (piecesFirst m c t he).1 S256x128.size (by sl_kernel_rfl) y

/-- What an even point leaves in the scratch: its pieces read back. -/
def scrEven (c : Dev nD) (t : Fin cfg0.N) (he : t.val % 2 = 0) : Vec F S256x128 .f32 :=
  VS.read (Elt F) (VS.writes (Elt F) VS.junk (piecesFirst m c t he).1)

/-- The point before an odd point; it is even. -/
def prev (t : Fin cfg0.N) (ho : t.val % 2 = 1) : Fin cfg0.N := ⟨t.val - 1, by have := t.isLt; omega⟩
theorem prev_even (t : Fin cfg0.N) (ho : t.val % 2 = 1) : (prev t ho).val % 2 = 0 := by
  show (t.val - 1) % 2 = 0; omega

/-- The last chunk's run at an odd point, on the point's memrefs and input blocks, the scratch at what the even
    point before left. -/
def piecesLast (c : Dev nD) (t : Fin cfg0.N) (ho : t.val % 2 = 1) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _)
    (fun h => by have := (hcondFirst t).mp h; omega) ((hcondLater t).mpr ho) ((hcondLast t).mpr ho)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (scrEven m c (prev t ho) (prev_even t ho))

/-- Its stores cover the output window's buffer -/
theorem coverLastOut (c : Dev nD) (t : Fin cfg0.N) (ho : t.val % 2 = 1) (y : S256x64.Idx) :
    ∃ pc ∈ (piecesLast m c t ho).1, y ∈ pc.1.set :=
  View.cover_of_tiledL (piecesLast m c t ho).1 S256x64.size (by sl_kernel_rfl) y
/-- and the scratch. -/
theorem coverLastScr (c : Dev nD) (t : Fin cfg0.N) (ho : t.val % 2 = 1) (y : S256x128.Idx) :
    ∃ pc ∈ (piecesLast m c t ho).2.1, y ∈ pc.1.set :=
  View.cover_of_tiledL (piecesLast m c t ho).2.1 S256x128.size (by sl_kernel_rfl) y

/-- What an odd point leaves in the output window's buffer -/
def outOdd (c : Dev nD) (t : Fin cfg0.N) (ho : t.val % 2 = 1) : Vec F S256x64 .f32 :=
  VO.read (Elt F) (VO.writes (Elt F) VO.junk (piecesLast m c t ho).1)
/-- and in the scratch. -/
def scrOdd (c : Dev nD) (t : Fin cfg0.N) (ho : t.val % 2 = 1) : Vec F S256x128 .f32 :=
  VS.read (Elt F) (VS.writes (Elt F) VS.junk (piecesLast m c t ho).2.1)

/-! ## Point by point -/

/-- The scratch after point `t`. -/
def scrAt (c : Dev nD) (t : Fin cfg0.N) : Vec F S256x128 .f32 :=
  if he : t.val % 2 = 0 then scrEven m c t he else scrOdd m c t (Nat.mod_two_ne_zero.mp he)

theorem scrAt_even (c : Dev nD) (t : Fin cfg0.N) (he : t.val % 2 = 0) : scrAt m c t = scrEven m c t he := dif_pos he
theorem scrAt_odd (c : Dev nD) (t : Fin cfg0.N) (ho : t.val % 2 = 1) : scrAt m c t = scrOdd m c t ho :=
  (dif_neg (by omega : ¬ t.val % 2 = 0)).trans rfl

/-- The output window's buffer after point `t`: at an odd point what the body stored; at an even point the window is
    idle and nothing consults this. -/
def outAt (c : Dev nD) (t : Fin cfg0.N) : Vec F S256x64 .f32 :=
  if ho : t.val % 2 = 1 then outOdd m c t ho else VO.read (Elt F) VO.junk

theorem outAt_odd (c : Dev nD) (t : Fin cfg0.N) (ho : t.val % 2 = 1) : outAt m c t = outOdd m c t ho := dif_pos ho

/-- The core's scoped buffers that are no staging buffer are the scratch alone, held at some contents. -/
theorem scopedRest_scr (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The region invariant before position `n`: before the first point the scratch at anything; afterwards the scratch
    at what the point before left. The kernel keeps nothing else between points. -/
def PhiS (c : Dev nD) : (n : ℕ) → n ≤ cfg0.N → sProp 𝕄
  | 0, _ => iprop(∃ d, owns (c : Thread nD τ) scM fullShare d)
  | n + 1, hn => owns (c : Thread nD τ) scM fullShare (scrAt m c ⟨n, hn⟩)

theorem PhiS_succ (c : Dev nD) (n : ℕ) (hn : n < cfg0.N) :
    PhiS m c (n + 1) hn = owns (c : Thread nD τ) scM fullShare (scrAt m c ⟨n, hn⟩) := rfl

theorem PhiS_pos (c : Dev nD) (n : ℕ) (h : n ≤ cfg0.N) (hz : n ≠ 0) :
    PhiS m c n h = owns (c : Thread nD τ) scM fullShare (scrAt m c ⟨n - 1, by omega⟩) := by
  cases n with
  | zero => exact absurd rfl hz
  | succ n => rfl

/-- At every position the invariant holds the scratch at some contents. -/
theorem PhiS_any (c : Dev nD) (n : ℕ) (h : n ≤ cfg0.N) :
    PhiS m c n h ⊢ iprop(∃ d, owns (c : Thread nD τ) scM fullShare d) := by
  cases n with
  | zero => exact Idealize.SL.BI.Entails.refl _
  | succ n =>
    rw [PhiS_succ]
    iintro HS
    iexists _; iexact HS

/-! ## The pipeline's proof data -/

/-- The proof data on core `c`: the arrays as the region finds them; after the body each input window's buffer at its
    block and the output's at `outAt`; the invariant `PhiS`; nothing owed. The adjacency array is read by two windows,
    which hold its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

theorem leavesIn0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after0]
theorem leavesIn1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after1]
theorem leavesIn2 (c : Dev nD) (t : Fin cfg0.N) :
    (dats m 0 c).leavesExact 2 t = owns (c : Thread nD τ) (ms2 t) fullShare (iblk m c 2 t) := by
  unfold Dat.leavesExact; rw [show cfg0.idle 2 (grid0.coords t) = false from rfl, after2]
theorem leavesIn3 (c : Dev nD) (t : Fin cfg0.N) :
    (dats m 0 c).leavesExact 3 t = owns (c : Thread nD τ) (ms3 t) fullShare (iblk m c 3 t) := by
  unfold Dat.leavesExact; rw [show cfg0.idle 3 (grid0.coords t) = false from rfl, after3]
theorem leavesIn4 (c : Dev nD) (t : Fin cfg0.N) :
    (dats m 0 c).leavesExact 4 t = owns (c : Thread nD τ) (ms4 t) fullShare (iblk m c 4 t) := by
  unfold Dat.leavesExact; rw [show cfg0.idle 4 (grid0.coords t) = false from rfl, after4]
theorem leavesIn5 (c : Dev nD) (t : Fin cfg0.N) :
    (dats m 0 c).leavesExact 5 t = owns (c : Thread nD τ) (ms5 t) fullShare (iblk m c 5 t) := by
  unfold Dat.leavesExact; rw [show cfg0.idle 5 (grid0.coords t) = false from rfl, after5]
theorem leavesIn6 (c : Dev nD) (t : Fin cfg0.N) :
    (dats m 0 c).leavesExact 6 t = owns (c : Thread nD τ) (ms6 t) fullShare (iblk m c 6 t) := by
  unfold Dat.leavesExact; rw [show cfg0.idle 6 (grid0.coords t) = false from rfl, after6]
theorem leavesIn7 (c : Dev nD) (t : Fin cfg0.N) :
    (dats m 0 c).leavesExact 7 t = owns (c : Thread nD τ) (ms7 t) fullShare (iblk m c 7 t) := by
  unfold Dat.leavesExact; rw [show cfg0.idle 7 (grid0.coords t) = false from rfl, after7]
theorem leavesIn8 (c : Dev nD) (t : Fin cfg0.N) :
    (dats m 0 c).leavesExact 8 t = owns (c : Thread nD τ) (ms8 t) fullShare (iblk m c 8 t) := by
  unfold Dat.leavesExact; rw [show cfg0.idle 8 (grid0.coords t) = false from rfl, after8]
theorem leavesIn9 (c : Dev nD) (t : Fin cfg0.N) :
    (dats m 0 c).leavesExact 9 t = owns (c : Thread nD τ) (ms9 t) fullShare (iblk m c 9 t) := by
  unfold Dat.leavesExact; rw [show cfg0.idle 9 (grid0.coords t) = false from rfl, after9]
theorem leavesIn10 (c : Dev nD) (t : Fin cfg0.N) :
    (dats m 0 c).leavesExact 10 t = owns (c : Thread nD τ) (ms10 t) fullShare (iblk m c 10 t) := by
  unfold Dat.leavesExact; rw [show cfg0.idle 10 (grid0.coords t) = false from rfl, after10]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- The body at any point. Every input buffer holds its block. At an even point the first chunk's run applies: the
    scratch, at whatever the invariant holds it at, ends at that point's contents, and the idle output buffer is
    handed back as found. At an odd point the invariant holds the scratch at what the even point before left, the
    last chunk's run applies, and the scratch and the output buffer end at that point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [show (dats m 0 c).Φ t.succ = PhiS m c (t.val + 1) t.isLt from rfl, PhiS_succ]
  rw [leavesIn0, leavesIn1, leavesIn2, leavesIn3, leavesIn4, leavesIn5, leavesIn6, leavesIn7, leavesIn8, leavesIn9, leavesIn10]
  by_cases he : t.val % 2 = 0
  · rw [Dat.leavesExact_idle (dats m 0 c) 11 t (idleOut_even t he) (noFlushOut_even t he)]
    rw [scrAt_even m c t he]
    unfold scrEven
    rw [Phi_castSucc m c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HS := (PhiS_any m c t.val (Nat.le_of_lt t.isLt)) $$ HΦ
    iapply ((piecesFirst m c t he).2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS]
    · unfold owns; iexists _; isplitr
      swap; · iexact HS
      ipureintro; exact View.read_writes_of_cover _ _ _ _ _ (coverFirst m c t he)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · have ho : t.val % 2 = 1 := Nat.mod_two_ne_zero.mp he
    have hz : t.val ≠ 0 := by omega
    rw [show (dats m 0 c).leavesExact 11 t = owns (c : Thread nD τ) (ms11 t) fullShare ((dats m 0 c).after 11 t) from by
      unfold Dat.leavesExact; rw [liveOut_odd t ho], after11, outAt_odd m c t ho]
    rw [scrAt_odd m c t ho]
    unfold outOdd scrOdd
    rw [Phi_castSucc m c t, PhiS_pos m c _ _ hz, scrAt_even m c ⟨t.val - 1, by have := t.isLt; omega⟩ (prev_even t ho)]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((piecesLast m c t ho).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS]; · iexact HS
    iintro ⟨H0, H1, H2, H3, H4, H5, H6, H7, H8, H9, H10, ⟨%eo, H11⟩, ⟨%es, HS⟩⟩
    isplitl [HS]
    · unfold owns; iexists _; isplitr
      swap; · iexact HS
      ipureintro; exact View.read_writes_of_cover _ _ _ _ _ (coverLastScr m c t ho)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; exact View.read_writes_of_cover _ _ _ _ _ (coverLastOut m c t ho)

/-- The library's body obligation, at every point. -/
theorem body_obligation (c : Dev nD) : BodyObligation (dats (F := F) m 0 c) (defs₀ (F := F)) Variants.none () Set.univ := fun t => by
  rw [bigSep_W0, bigSep_W0]
  exact sound_body m c t

/-- The scoped rest the launch hands the region is the invariant before the first point. -/
theorem hin (c : Dev nD) : Pipeline.scopedRest spec0 c ⊢ (dats m 0 c).Φ 0 := by
  rw [scopedRest_scr, show (dats m 0 c).Φ 0 = PhiS m c 0 (Nat.zero_le _) from rfl]
  exact Idealize.SL.BI.Entails.refl _

/-- After the last point the invariant gives it back: the scratch's named contents are forgotten. -/
theorem hout (c : Dev nD) : (dats m 0 c).Φ (Fin.last cfg0.N) ⊢ Pipeline.scopedRest spec0 c := by
  rw [scopedRest_scr, show (dats m 0 c).Φ (Fin.last cfg0.N) = PhiS m c (Fin.last cfg0.N).val (Nat.le_of_lt_succ (Fin.last cfg0.N).isLt) from rfl]
  exact PhiS_any m c _ _

end Cert.KernelIdeal.Gru

end
-- ==== Proof.FrameRun.lean ====
/-
  The propagator kernel's run: every weakly fair execution terminates without a fault, each array a window stages
  ends at what the write-backs leave in it, and every other buffer of the core ends as the region found it.

  The adjacency array is handed to the kernel through two input windows (the rows of its first and of its second
  plane). Both only read it, so the buffer's full share is split into its two halves, one per window; every other
  array goes to its one window whole. The kernel has no semaphore of its own and keeps only its scratch between
  points, so the region's invariant is entered from, and returns to, the scratch at some contents.
-/
import proofs.«164506_g33844342292619_cont_8to1_b_602_23_alg».proof.Proof.FrameData

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- A window's array at entry, as the proof data hold it, is a plain points-to of the buffer behind it at the
    region-entry contents, at the window's share. -/
theorem arr_pt (c : Dev nD) (w : Fin cfg0.W) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{(dats m 0 c).share w} V m c (Pipeline.arrRef spec0 w)) := by
  rw [(arr_whole0 w).set_eq_univ]; rfl

/-- The eleven distinct buffers behind the twelve windows' arrays, each whole at the full share, are the proof data's
    arrays at entry: the adjacency buffer's two halves go to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_v2) ↦{fullShare} V m c main_v2) ∗ (((c : Thread nD τ).loc main_v0) ↦{fullShare} V m c main_v0) ∗ (((c : Thread nD τ).loc main_v1) ↦{fullShare} V m c main_v1) ∗ (((c : Thread nD τ).loc main_arg2) ↦{fullShare} V m c main_arg2) ∗ (((c : Thread nD τ).loc main_arg4) ↦{fullShare} V m c main_arg4) ∗ (((c : Thread nD τ).loc main_v3) ↦{fullShare} V m c main_v3) ∗ (((c : Thread nD τ).loc main_arg6) ↦{fullShare} V m c main_arg6) ∗ (((c : Thread nD τ).loc main_v4) ↦{fullShare} V m c main_v4) ∗ (((c : Thread nD τ).loc main_arg8) ↦{fullShare} V m c main_arg8) ∗ (((c : Thread nD τ).loc main_v5) ↦{fullShare} V m c main_v5) ∗ (((c : Thread nD τ).loc main_v6) ↦{fullShare} V m c main_v6)) := by
    unfold Pipeline.arrBufs
    exact bigSep_eq_bigSepL_of_eq [main_v2, main_v0, main_v1, main_arg2, main_arg4, main_v3, main_arg6, main_v4, main_arg8, main_v5, main_v6] (by decide) (by decide) _
  rw [e]
  unfold Dat.arrays
  rw [bigSep_W0]
  iintro ⟨HA, H2, H3, H4, H5, H6, H7, H8, H9, H10, H11⟩
  ihave HA' := (pointsTo_share (PosShare.mem_left_op_right fullShare)).1 $$ HA
  icases HA' with ⟨HA0, HA1⟩
  isplitl [HA0]; · rw [arr_pt m c 0]; iexact HA0
  isplitl [HA1]; · rw [arr_pt m c 1]; iexact HA1
  isplitl [H2]; · rw [arr_pt m c 2]; iexact H2
  isplitl [H3]; · rw [arr_pt m c 3]; iexact H3
  isplitl [H4]; · rw [arr_pt m c 4]; iexact H4
  isplitl [H5]; · rw [arr_pt m c 5]; iexact H5
  isplitl [H6]; · rw [arr_pt m c 6]; iexact H6
  isplitl [H7]; · rw [arr_pt m c 7]; iexact H7
  isplitl [H8]; · rw [arr_pt m c 8]; iexact H8
  isplitl [H9]; · rw [arr_pt m c 9]; iexact H9
  isplitl [H10]; · rw [arr_pt m c 10]; iexact H10
  rw [arr_pt m c 11]; iexact H11

/-! ## The run -/

/-- What the run ends in: every window's array at what the write-backs leave (`Dat.arrAt` after all 32 points), every
    other unscoped buffer as the region found it. -/
def Post (r : PUnit × MemSt nD τ sig (Elt F)) : Prop :=
  ∀ c : Dev nD, (∀ w, r.2.mem ((cfg0.spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with zero counters every weakly fair execution of the program terminates, nothing faulting, in a
    state satisfying `Post`. -/
theorem run_main : θ_run defs (onTc (τ := τ) (main (F := F))) ⟨m, fun _ => 0, ρ⟩ (Post m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj))
    (hu₀ := Idealize.SL.BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      iintro ⟨-, H⟩
      iapply (hin m c); iexact H)
    (hout := fun c => by
      iintro H
      isplitr; · iempintro
      iapply (hout m c); iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-! ## The arguments end unchanged -/

/-- The reshapes before the region write only their own results: each argument is, at the region's entry, what the
    launch memory holds. -/
theorem V_arg0 (c : Dev nD) : V m c main_arg0 = m ((c : Thread nD τ).loc main_arg0) := by
  dsimp only [V, V0, hostOps0]; after_results
theorem V_arg1 (c : Dev nD) : V m c main_arg1 = m ((c : Thread nD τ).loc main_arg1) := by
  dsimp only [V, V0, hostOps0]; after_results
theorem V_arg2 (c : Dev nD) : V m c main_arg2 = m ((c : Thread nD τ).loc main_arg2) := by
  dsimp only [V, V0, hostOps0]; after_results
theorem V_arg3 (c : Dev nD) : V m c main_arg3 = m ((c : Thread nD τ).loc main_arg3) := by
  dsimp only [V, V0, hostOps0]; after_results
theorem V_arg4 (c : Dev nD) : V m c main_arg4 = m ((c : Thread nD τ).loc main_arg4) := by
  dsimp only [V, V0, hostOps0]; after_results
theorem V_arg5 (c : Dev nD) : V m c main_arg5 = m ((c : Thread nD τ).loc main_arg5) := by
  dsimp only [V, V0, hostOps0]; after_results
theorem V_arg6 (c : Dev nD) : V m c main_arg6 = m ((c : Thread nD τ).loc main_arg6) := by
  dsimp only [V, V0, hostOps0]; after_results
theorem V_arg7 (c : Dev nD) : V m c main_arg7 = m ((c : Thread nD τ).loc main_arg7) := by
  dsimp only [V, V0, hostOps0]; after_results
theorem V_arg8 (c : Dev nD) : V m c main_arg8 = m ((c : Thread nD τ).loc main_arg8) := by
  dsimp only [V, V0, hostOps0]; after_results
theorem V_arg9 (c : Dev nD) : V m c main_arg9 = m ((c : Thread nD τ).loc main_arg9) := by
  dsimp only [V, V0, hostOps0]; after_results

/-- The frame: the program runs, and its ten argument arrays end as they began. The four a window stages are inputs,
    never written; the other six bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_arg0 (Pipeline.mem_restRefs_of main_arg0 rfl (by decide))).trans (V_arg0 m c),
     ((h c).2 main_arg1 (Pipeline.mem_restRefs_of main_arg1 rfl (by decide))).trans (V_arg1 m c),
     ((h c).1 4).trans (((dats m 0 c).arrAt_in 4 rfl _).trans ((A_eq m c 4).trans (V_arg2 m c))),
     ((h c).2 main_arg3 (Pipeline.mem_restRefs_of main_arg3 rfl (by decide))).trans (V_arg3 m c),
     ((h c).1 5).trans (((dats m 0 c).arrAt_in 5 rfl _).trans ((A_eq m c 5).trans (V_arg4 m c))),
     ((h c).2 main_arg5 (Pipeline.mem_restRefs_of main_arg5 rfl (by decide))).trans (V_arg5 m c),
     ((h c).1 7).trans (((dats m 0 c).arrAt_in 7 rfl _).trans ((A_eq m c 7).trans (V_arg6 m c))),
     ((h c).2 main_arg7 (Pipeline.mem_restRefs_of main_arg7 rfl (by decide))).trans (V_arg7 m c),
     ((h c).1 9).trans (((dats m 0 c).arrAt_in 9 rfl _).trans ((A_eq m c 9).trans (V_arg8 m c))),
     ((h c).2 main_arg9 (Pipeline.mem_restRefs_of main_arg9 rfl (by decide))).trans (V_arg9 m c)⟩) (run_main m ρ)

end Cert.KernelIdeal.Gru

end
-- ==== Proof.LibReadCovWhole.lean ====
/-
  A buffer read back after one store that covers it.

  When the only store into a buffer goes through the rectangle of the buffer's whole shape at zero offsets, a later
  read through ANY rectangle of the buffer (a half, a slab, a strided box) reads the stored value at the rectangle's
  indices: the store covers every index, so what was there before does not matter. Stated for any shape and any
  value type, the zeros of the store's offsets however they are spelt.
-/
import Idealize.ShloMosaic.Lib.Pipeline.FrameBody
import Idealize.ShloMosaic.Lib.Pipeline.Value

noncomputable section

namespace Cert.Lib.ReadCovWhole

open Idealize.ShloMosaic

/-- A read through rectangle `r`, after one store of `w` through the whole-shape rectangle at zero offsets, reads
    `w` at `r`'s indices. -/
theorem readCov_whole {sig : RefSig} {Val : EltTy → Type} [∀ e, Nonempty (Val e)] {κ : Kind} {sp : Space} {S : Shape} {e : EltTy}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  subst h
  rw [View.readCov_eq_canon_ld _ _ r (fun y => ⟨_, List.mem_singleton_self _, by
    show y ∈ (Rect.whole S).set; rw [Rect.set_whole]; exact Finset.mem_univ y⟩), View.canon_unit_zero rfl]

end Cert.Lib.ReadCovWhole

end
-- ==== Proof.KernelPieces.lean ====
/-
  What the body leaves, as values. At an even point the scratch accumulator ends at the two partial products of the
  first chunk, side by side: the adjacency blocks against the first 4096 rows of the neighbour-state arrays. At an odd
  point it ends at what the even point before left plus the last chunk's partial products, and the output window's
  buffer ends at the gated update computed from the accumulator's left half (the incoming message), its right half
  (the outgoing message), the row block of node states, and the gates' weights and biases. Each is the one covering
  store's payload of that case, over the blocks the body loaded; the two half-reads of the accumulator after its store
  read the stored sum.
-/
import proofs.«164506_g33844342292619_cont_8to1_b_602_23_alg».proof.Proof.FrameRun
import proofs.«164506_g33844342292619_cont_8to1_b_602_23_alg».proof.Proof.LibReadCovWhole
import Idealize.ShloMosaic.Lib.Pipeline.Value

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Lib.ReadCovWhole (readCov_whole)

variable (m : (ℓ : Loc nD τ sig) → Buf (Elt F) ℓ)

theorem hz2 : (![0, 0] : Fin 2 → Nat) = fun _ => 0 := funext fun a => by fin_cases a <;> rfl

/-- The rows of a neighbour-state array the chunk of point `t` reads: 4096 rows from row 4096 · (chunk). -/
abbrev chunkRect (t : Fin cfg0.N) : Rect S8192x64 :=
  Rect.unit (s := S8192x64) (k0_off1 (grid0.coords t)) S4096x64.size (k0_off1_inb (grid0.coords t))
/-- The left and the right half of the accumulator. -/
abbrev leftRect : Rect S256x128 := Rect.unit (s := S256x128) ![0, 0] S256x64.size inb_S256x128_S256x64_0_0
abbrev rightRect : Rect S256x128 := Rect.unit (s := S256x128) ![0, 64] S256x64.size inb_S256x128_S256x64_0_64

/-- The two partial products of point `t`'s chunk, side by side. -/
abbrev partials (c : Dev nD) (t : Fin cfg0.N) : Vec F S256x128 .f32 :=
  k0_pay1 (iblk m c 0 t) (View.ld (iblk m c 2 t : Vec F S8192x64 .f32) (chunkRect t)) (iblk m c 1 t)
    (View.ld (iblk m c 3 t : Vec F S8192x64 .f32) (chunkRect t))

/-- An even point leaves the chunk's partial products in the accumulator. -/
theorem scrEven_eq (c : Dev nD) (t : Fin cfg0.N) (he : t.val % 2 = 0) :
    scrEven m c t he = k0_pay2 (iblk m c 0 t) (View.ld (iblk m c 2 t : Vec F S8192x64 .f32) (chunkRect t)) (iblk m c 1 t)
      (View.ld (iblk m c 3 t : Vec F S8192x64 .f32) (chunkRect t)) := by
  unfold scrEven
  rw [View.read_writes_eq_canon _ _ _ (coverFirst m c t he)]
  unfold piecesFirst runFirst
  dsimp only
  rw [View.canon_unit_zero hz2]
  simp only [View.readAt_eq_ld, (hs0 t).read_unread, (hs1 t).read_unread, (hs2 t).read_unread, (hs3 t).read_unread, View.ld_unit_zero (S := S256x4096) hz2]
  rfl

/-- An odd point leaves in the accumulator what the even point before left plus its own chunk's partial products. -/
theorem scrOdd_eq (c : Dev nD) (t : Fin cfg0.N) (ho : t.val % 2 = 1) :
    scrOdd m c t ho = k0_pay3 (iblk m c 0 t) (View.ld (iblk m c 2 t : Vec F S8192x64 .f32) (chunkRect t)) (iblk m c 1 t)
      (View.ld (iblk m c 3 t : Vec F S8192x64 .f32) (chunkRect t)) (scrEven m c (prev t ho) (prev_even t ho)) := by
  unfold scrOdd
  rw [View.read_writes_eq_canon _ _ _ (coverLastScr m c t ho)]
  unfold piecesLast runLast
  dsimp only
  sl_unfold_run_names
  rw [View.canon_unit_zero hz2]
  simp only [View.readAt_eq_ld, (hs0 t).read_unread, (hs1 t).read_unread, (hs2 t).read_unread, (hs3 t).read_unread, (Memref.isWhole_whole cc0_scratch0).read_unread,
    View.ld_unit_zero (S := S256x4096) hz2, View.ld_unit_zero (S := S256x128) hz2]
  rfl

set_option maxHeartbeats 1000000 in
/-- An odd point leaves in the output window's buffer the gated update of the accumulator's two halves. -/
theorem outOdd_eq (c : Dev nD) (t : Fin cfg0.N) (ho : t.val % 2 = 1) :
    outOdd m c t ho = k0_pay4 (View.ld (scrOdd m c t ho) leftRect) (View.ld (scrOdd m c t ho) rightRect)
      (iblk m c 4 t) (iblk m c 5 t) (iblk m c 6 t) (iblk m c 7 t) (iblk m c 8 t) (iblk m c 9 t) (iblk m c 10 t) := by
  rw [scrOdd_eq]
  unfold outOdd
  rw [View.read_writes_eq_canon _ _ _ (coverLastOut m c t ho)]
  unfold piecesLast runLast
  dsimp only
  sl_unfold_run_names
  rw [View.canon_unit_zero hz2]
  rw [readCov_whole _ hz2 _ _ leftRect, readCov_whole _ hz2 _ _ rightRect]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread, (Memref.isWhole_whole cc0_scratch0).read_unread,
    View.ld_unit_zero (S := S256x4096) hz2, View.ld_unit_zero (S := S256x128) hz2, View.ld_unit_zero (S := S256x64) hz2,
    View.ld_unit_zero (S := S192x64) hz2, View.ld_unit_zero (S := S1x64) hz2]
  rfl

end Cert.KernelIdeal.Gru

end
-- ==== Proof.BlocksAt.lean ====
/-
  Where each entry the kernel's body reads comes from, in terms of the arrays the program was launched with.

  Before the region six reshapes lay the arguments out: the two neighbour-state arrays lose their leading unit axis
  ([1, 8192, 64] to [8192, 64]), the pair of adjacency matrices is stacked row-wise ([2, 4096, 8192] to
  [8192, 8192]: matrix e, row r becomes row 4096 · e + r), and the three biases gain a leading unit axis ([64] to
  [1, 64]). A reshape keeps row-major positions and writes only its own result, so each of these arrays, read at an
  index, is an argument at the index with the same row-major position, and the remaining arguments are as launched.

  The grid is 16 row blocks by 2 column chunks in row-major order: point t is row block t / 2, chunk t % 2. Each
  input window's block at a point, read at an index, is the window's array at block index · block size + the index
  inside the block, axis by axis; the block indices are decided once over the 32 points. The same reading gives the
  rows of a neighbour-state array that a chunk loads (rows 4096 · (t % 2) onward) and the two halves of the
  256 × 128 accumulator (columns 0 … 63 and 64 … 127). No arithmetic on the elements is involved.
-/
import proofs.«164506_g33844342292619_cont_8to1_b_602_23_alg».proof.Proof.FrameBase
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Gru.Blocks

open Cert.KernelIdeal Cert.KernelIdeal.Gen Cert.KernelIdeal.Gru
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The region-entry arrays through their reshapes

Each reshaped array is the cast of its argument to the new shape; the other arguments are untouched. Read at an index,
a cast is the operand at the index with the same row-major position: (0 · 8192 + k) · 64 + d = k · 64 + d for a dropped
leading unit axis, (e · 4096 + r) · 8192 + k = (4096 · e + r) · 8192 + k for the stacked matrices, d = 0 · 64 + d for
an added leading unit axis. -/

/-- The first neighbour-state array, as a whole: the first argument cast to [8192, 64]. -/
theorem V_v0_eq (c : Dev nD) :
    V m c main_v0 = shapeCast _ (m ((c : Thread nD τ).loc main_arg0)) shapeCasts_S1x8192x64_S8192x64 := by
  dsimp only [V, V0, hostOps0]; after_results; rfl

/-- Its entry (k, d) is the argument's entry (0, k, d). -/
theorem V_v0 (c : Dev nD) (k : Fin 8192) (d : Fin 64) :
    V m c main_v0 (ix2 k d) = m ((c : Thread nD τ).loc main_arg0) (ix3 (0 : Fin 1) k d) := by
  rw [V_v0_eq]
  exact shapeCast_apply _ shapeCasts_S1x8192x64_S8192x64 (ix2 k d) (ix3 (0 : Fin 1) k d)
    (by rw [Shape.rowMajor_val_three, Shape.rowMajor_val_two]; show (0 * 8192 + k.val) * 64 + d.val = k.val * 64 + d.val; omega)

/-- The second neighbour-state array, as a whole: the second argument cast to [8192, 64]. -/
theorem V_v1_eq (c : Dev nD) :
    V m c main_v1 = shapeCast _ (m ((c : Thread nD τ).loc main_arg1)) shapeCasts_S1x8192x64_S8192x64 := by
  dsimp only [V, V0, hostOps0]; after_results; rfl

/-- Its entry (k, d) is the argument's entry (0, k, d). -/
theorem V_v1 (c : Dev nD) (k : Fin 8192) (d : Fin 64) :
    V m c main_v1 (ix2 k d) = m ((c : Thread nD τ).loc main_arg1) (ix3 (0 : Fin 1) k d) := by
  rw [V_v1_eq]
  exact shapeCast_apply _ shapeCasts_S1x8192x64_S8192x64 (ix2 k d) (ix3 (0 : Fin 1) k d)
    (by rw [Shape.rowMajor_val_three, Shape.rowMajor_val_two]; show (0 * 8192 + k.val) * 64 + d.val = k.val * 64 + d.val; omega)

/-- The stacked adjacency, as a whole: the pair of matrices cast to [8192, 8192]. -/
theorem V_v2_eq (c : Dev nD) :
    V m c main_v2 = shapeCast _ (m ((c : Thread nD τ).loc main_arg3)) shapeCasts_S2x4096x8192_S8192x8192 := by
  dsimp only [V, V0, hostOps0]; after_results; rfl

/-- Row 4096 · e + r of the stacked adjacency is row r of matrix e. -/
theorem V_v2 (c : Dev nD) (e : Fin 2) (r : Fin 4096) (k : Fin 8192) :
    V m c main_v2 (ix2 (⟨4096 * e.val + r.val, by omega⟩ : Fin 8192) k) = m ((c : Thread nD τ).loc main_arg3) (ix3 e r k) := by
  rw [V_v2_eq]
  exact shapeCast_apply _ shapeCasts_S2x4096x8192_S8192x8192 (ix2 (⟨4096 * e.val + r.val, by omega⟩ : Fin 8192) k) (ix3 e r k)
    (by rw [Shape.rowMajor_val_three, Shape.rowMajor_val_two]
        show (e.val * 4096 + r.val) * 8192 + k.val = (4096 * e.val + r.val) * 8192 + k.val; omega)

/-- The reset gate's bias as one row, as a whole: the argument cast to [1, 64]. -/
theorem V_v3_eq (c : Dev nD) :
    V m c main_v3 = shapeCast _ (m ((c : Thread nD τ).loc main_arg5)) shapeCasts_S64_S1x64 := by
  dsimp only [V, V0, hostOps0]; after_results; rfl

/-- Its entry (0, d) is the argument's entry d. -/
theorem V_v3 (c : Dev nD) (d : Fin 64) :
    V m c main_v3 (ix2 (0 : Fin 1) d) = m ((c : Thread nD τ).loc main_arg5) (ix1 d) := by
  rw [V_v3_eq]
  exact shapeCast_apply _ shapeCasts_S64_S1x64 (ix2 (0 : Fin 1) d) (ix1 d)
    (by rw [Shape.rowMajor_val_one, Shape.rowMajor_val_two]; show d.val = 0 * 64 + d.val; omega)

/-- The update gate's bias as one row, as a whole: the argument cast to [1, 64]. -/
theorem V_v4_eq (c : Dev nD) :
    V m c main_v4 = shapeCast _ (m ((c : Thread nD τ).loc main_arg7)) shapeCasts_S64_S1x64 := by
  dsimp only [V, V0, hostOps0]; after_results; rfl

/-- Its entry (0, d) is the argument's entry d. -/
theorem V_v4 (c : Dev nD) (d : Fin 64) :
    V m c main_v4 (ix2 (0 : Fin 1) d) = m ((c : Thread nD τ).loc main_arg7) (ix1 d) := by
  rw [V_v4_eq]
  exact shapeCast_apply _ shapeCasts_S64_S1x64 (ix2 (0 : Fin 1) d) (ix1 d)
    (by rw [Shape.rowMajor_val_one, Shape.rowMajor_val_two]; show d.val = 0 * 64 + d.val; omega)

/-- The candidate's bias as one row, as a whole: the argument cast to [1, 64]. -/
theorem V_v5_eq (c : Dev nD) :
    V m c main_v5 = shapeCast _ (m ((c : Thread nD τ).loc main_arg9)) shapeCasts_S64_S1x64 := by
  dsimp only [V, V0, hostOps0]; after_results; rfl

/-- Its entry (0, d) is the argument's entry d. -/
theorem V_v5 (c : Dev nD) (d : Fin 64) :
    V m c main_v5 (ix2 (0 : Fin 1) d) = m ((c : Thread nD τ).loc main_arg9) (ix1 d) := by
  rw [V_v5_eq]
  exact shapeCast_apply _ shapeCasts_S64_S1x64 (ix2 (0 : Fin 1) d) (ix1 d)
    (by rw [Shape.rowMajor_val_one, Shape.rowMajor_val_two]; show d.val = 0 * 64 + d.val; omega)

/-- The node states are as launched: no reshape writes them. -/
theorem V_a2 (c : Dev nD) : V m c main_arg2 = m ((c : Thread nD τ).loc main_arg2) := by
  dsimp only [V, V0, hostOps0]; after_results

/-- The reset gate's weights are as launched. -/
theorem V_a4 (c : Dev nD) : V m c main_arg4 = m ((c : Thread nD τ).loc main_arg4) := by
  dsimp only [V, V0, hostOps0]; after_results

/-- The update gate's weights are as launched. -/
theorem V_a6 (c : Dev nD) : V m c main_arg6 = m ((c : Thread nD τ).loc main_arg6) := by
  dsimp only [V, V0, hostOps0]; after_results

/-- The candidate's weights are as launched. -/
theorem V_a8 (c : Dev nD) : V m c main_arg8 = m ((c : Thread nD τ).loc main_arg8) := by
  dsimp only [V, V0, hostOps0]; after_results

/-! ## The windows' block indices, decided over the grid

Point t of the 32 is row block t / 2, chunk t % 2. -/

/-- Every point's number is below 32. -/
theorem t_lt (t : Fin cfg0.N) : t.val < 32 := by
  have h := t.isLt
  have hN : cfg0.N = 32 := N_0
  omega

/-- The first adjacency window: row block t / 2, column chunk t % 2. -/
theorem idx0 : ∀ t : Fin cfg0.N, win0_0.index t (0 : Fin 2) = t.val / 2 ∧ win0_0.index t (1 : Fin 2) = t.val % 2 :=
  (by decide +kernel : ∀ t : Fin grid0.N, _)

/-- The second adjacency window: sixteen row blocks further down the stacked array, the same column chunk. -/
theorem idx1 : ∀ t : Fin cfg0.N, win0_1.index t (0 : Fin 2) = t.val / 2 + 16 ∧ win0_1.index t (1 : Fin 2) = t.val % 2 :=
  (by decide +kernel : ∀ t : Fin grid0.N, _)

/-- The first neighbour-state window is the whole array at every point. -/
theorem idx2 : ∀ t : Fin cfg0.N, win0_2.index t (0 : Fin 2) = 0 ∧ win0_2.index t (1 : Fin 2) = 0 :=
  (by decide +kernel : ∀ t : Fin grid0.N, _)

/-- The second neighbour-state window is the whole array at every point. -/
theorem idx3 : ∀ t : Fin cfg0.N, win0_3.index t (0 : Fin 2) = 0 ∧ win0_3.index t (1 : Fin 2) = 0 :=
  (by decide +kernel : ∀ t : Fin grid0.N, _)

/-- The node-state window: row block t / 2. -/
theorem idx4 : ∀ t : Fin cfg0.N, win0_4.index t (0 : Fin 2) = t.val / 2 ∧ win0_4.index t (1 : Fin 2) = 0 :=
  (by decide +kernel : ∀ t : Fin grid0.N, _)

/-- The reset gate's weights: the whole array at every point. -/
theorem idx5 : ∀ t : Fin cfg0.N, win0_5.index t (0 : Fin 2) = 0 ∧ win0_5.index t (1 : Fin 2) = 0 :=
  (by decide +kernel : ∀ t : Fin grid0.N, _)

/-- The reset gate's bias: the whole array at every point. -/
theorem idx6 : ∀ t : Fin cfg0.N, win0_6.index t (0 : Fin 2) = 0 ∧ win0_6.index t (1 : Fin 2) = 0 :=
  (by decide +kernel : ∀ t : Fin grid0.N, _)

/-- The update gate's weights: the whole array at every point. -/
theorem idx7 : ∀ t : Fin cfg0.N, win0_7.index t (0 : Fin 2) = 0 ∧ win0_7.index t (1 : Fin 2) = 0 :=
  (by decide +kernel : ∀ t : Fin grid0.N, _)

/-- The update gate's bias: the whole array at every point. -/
theorem idx8 : ∀ t : Fin cfg0.N, win0_8.index t (0 : Fin 2) = 0 ∧ win0_8.index t (1 : Fin 2) = 0 :=
  (by decide +kernel : ∀ t : Fin grid0.N, _)

/-- The candidate's weights: the whole array at every point. -/
theorem idx9 : ∀ t : Fin cfg0.N, win0_9.index t (0 : Fin 2) = 0 ∧ win0_9.index t (1 : Fin 2) = 0 :=
  (by decide +kernel : ∀ t : Fin grid0.N, _)

/-- The candidate's bias: the whole array at every point. -/
theorem idx10 : ∀ t : Fin cfg0.N, win0_10.index t (0 : Fin 2) = 0 ∧ win0_10.index t (1 : Fin 2) = 0 :=
  (by decide +kernel : ∀ t : Fin grid0.N, _)

/-! ## Each input window's block at a point, read at an index

A block read at an index inside it is the array at, on each axis, block index · block size + 1 · the coordinate inside
the block. -/

/-- Entry (p, k) of the first adjacency block is the stacked adjacency at row 256 · (t / 2) + p, column 4096 · (t % 2) + k. -/
theorem blk0 (c : Dev nD) (t : Fin cfg0.N) (p : Fin 256) (k : Fin 4096) :
    iblk m c 0 t (ix2 p k)
      = V m c main_v2 (ix2 (⟨256 * (t.val / 2) + p.val, by have := t_lt t; omega⟩ : Fin 8192)
          (⟨4096 * (t.val % 2) + k.val, by omega⟩ : Fin 8192)) := by
  unfold iblk
  rw [View.read_apply]
  obtain ⟨e0, e1⟩ := idx0 t
  have ht := t_lt t
  refine congrArg (V m c main_v2) (funext fun a => Fin.ext ?_)
  match a with
  | ⟨0, _⟩ =>
    show win0_0.index t (0 : Fin 2) * 256 + 1 * p.val = 256 * (t.val / 2) + p.val
    omega
  | ⟨1, _⟩ =>
    show win0_0.index t (1 : Fin 2) * 4096 + 1 * k.val = 4096 * (t.val % 2) + k.val
    omega

/-- Entry (p, k) of the second adjacency block is the stacked adjacency at row 4096 + 256 · (t / 2) + p (the second matrix's rows), column 4096 · (t % 2) + k. -/
theorem blk1 (c : Dev nD) (t : Fin cfg0.N) (p : Fin 256) (k : Fin 4096) :
    iblk m c 1 t (ix2 p k)
      = V m c main_v2 (ix2 (⟨4096 + 256 * (t.val / 2) + p.val, by have := t_lt t; omega⟩ : Fin 8192)
          (⟨4096 * (t.val % 2) + k.val, by omega⟩ : Fin 8192)) := by
  unfold iblk
  rw [View.read_apply]
  obtain ⟨e0, e1⟩ := idx1 t
  have ht := t_lt t
  refine congrArg (V m c main_v2) (funext fun a => Fin.ext ?_)
  match a with
  | ⟨0, _⟩ =>
    show win0_1.index t (0 : Fin 2) * 256 + 1 * p.val = 4096 + 256 * (t.val / 2) + p.val
    omega
  | ⟨1, _⟩ =>
    show win0_1.index t (1 : Fin 2) * 4096 + 1 * k.val = 4096 * (t.val % 2) + k.val
    omega

/-- Entry (p, d) of the node-state block is the node states at row 256 · (t / 2) + p. -/
theorem blk4 (c : Dev nD) (t : Fin cfg0.N) (p : Fin 256) (d : Fin 64) :
    iblk m c 4 t (ix2 p d)
      = V m c main_arg2 (ix2 (⟨256 * (t.val / 2) + p.val, by have := t_lt t; omega⟩ : Fin 4096) d) := by
  unfold iblk
  rw [View.read_apply]
  obtain ⟨e0, e1⟩ := idx4 t
  have ht := t_lt t
  refine congrArg (V m c main_arg2) (funext fun a => Fin.ext ?_)
  match a with
  | ⟨0, _⟩ =>
    show win0_4.index t (0 : Fin 2) * 256 + 1 * p.val = 256 * (t.val / 2) + p.val
    omega
  | ⟨1, _⟩ =>
    show win0_4.index t (1 : Fin 2) * 64 + 1 * d.val = d.val
    omega

/-- The first neighbour-state block is the whole array. -/
theorem blk2 (c : Dev nD) (t : Fin cfg0.N) (k : Fin 8192) (d : Fin 64) :
    iblk m c 2 t (ix2 k d) = V m c main_v0 (ix2 k d) := by
  unfold iblk
  rw [View.read_apply]
  obtain ⟨e0, e1⟩ := idx2 t
  refine congrArg (V m c main_v0) (funext fun a => Fin.ext ?_)
  match a with
  | ⟨0, _⟩ =>
    show win0_2.index t (0 : Fin 2) * 8192 + 1 * k.val = k.val
    omega
  | ⟨1, _⟩ =>
    show win0_2.index t (1 : Fin 2) * 64 + 1 * d.val = d.val
    omega

/-- The second neighbour-state block is the whole array. -/
theorem blk3 (c : Dev nD) (t : Fin cfg0.N) (k : Fin 8192) (d : Fin 64) :
    iblk m c 3 t (ix2 k d) = V m c main_v1 (ix2 k d) := by
  unfold iblk
  rw [View.read_apply]
  obtain ⟨e0, e1⟩ := idx3 t
  refine congrArg (V m c main_v1) (funext fun a => Fin.ext ?_)
  match a with
  | ⟨0, _⟩ =>
    show win0_3.index t (0 : Fin 2) * 8192 + 1 * k.val = k.val
    omega
  | ⟨1, _⟩ =>
    show win0_3.index t (1 : Fin 2) * 64 + 1 * d.val = d.val
    omega

/-- The reset gate's weights block is the whole array. -/
theorem blk5 (c : Dev nD) (t : Fin cfg0.N) (k : Fin 192) (d : Fin 64) :
    iblk m c 5 t (ix2 k d) = V m c main_arg4 (ix2 k d) := by
  unfold iblk
  rw [View.read_apply]
  obtain ⟨e0, e1⟩ := idx5 t
  refine congrArg (V m c main_arg4) (funext fun a => Fin.ext ?_)
  match a with
  | ⟨0, _⟩ =>
    show win0_5.index t (0 : Fin 2) * 192 + 1 * k.val = k.val
    omega
  | ⟨1, _⟩ =>
    show win0_5.index t (1 : Fin 2) * 64 + 1 * d.val = d.val
    omega

/-- The reset gate's bias block is the whole one-row array. -/
theorem blk6 (c : Dev nD) (t : Fin cfg0.N) (d : Fin 64) :
    iblk m c 6 t (ix2 (0 : Fin 1) d) = V m c main_v3 (ix2 (0 : Fin 1) d) := by
  unfold iblk
  rw [View.read_apply]
  obtain ⟨e0, e1⟩ := idx6 t
  refine congrArg (V m c main_v3) (funext fun a => Fin.ext ?_)
  match a with
  | ⟨0, _⟩ =>
    show win0_6.index t (0 : Fin 2) * 1 + 1 * (0 : Fin 1).val = (0 : Fin 1).val
    omega
  | ⟨1, _⟩ =>
    show win0_6.index t (1 : Fin 2) * 64 + 1 * d.val = d.val
    omega

/-- The update gate's weights block is the whole array. -/
theorem blk7 (c : Dev nD) (t : Fin cfg0.N) (k : Fin 192) (d : Fin 64) :
    iblk m c 7 t (ix2 k d) = V m c main_arg6 (ix2 k d) := by
  unfold iblk
  rw [View.read_apply]
  obtain ⟨e0, e1⟩ := idx7 t
  refine congrArg (V m c main_arg6) (funext fun a => Fin.ext ?_)
  match a with
  | ⟨0, _⟩ =>
    show win0_7.index t (0 : Fin 2) * 192 + 1 * k.val = k.val
    omega
  | ⟨1, _⟩ =>
    show win0_7.index t (1 : Fin 2) * 64 + 1 * d.val = d.val
    omega

/-- The update gate's bias block is the whole one-row array. -/
theorem blk8 (c : Dev nD) (t : Fin cfg0.N) (d : Fin 64) :
    iblk m c 8 t (ix2 (0 : Fin 1) d) = V m c main_v4 (ix2 (0 : Fin 1) d) := by
  unfold iblk
  rw [View.read_apply]
  obtain ⟨e0, e1⟩ := idx8 t
  refine congrArg (V m c main_v4) (funext fun a => Fin.ext ?_)
  match a with
  | ⟨0, _⟩ =>
    show win0_8.index t (0 : Fin 2) * 1 + 1 * (0 : Fin 1).val = (0 : Fin 1).val
    omega
  | ⟨1, _⟩ =>
    show win0_8.index t (1 : Fin 2) * 64 + 1 * d.val = d.val
    omega

/-- The candidate's weights block is the whole array. -/
theorem blk9 (c : Dev nD) (t : Fin cfg0.N) (k : Fin 192) (d : Fin 64) :
    iblk m c 9 t (ix2 k d) = V m c main_arg8 (ix2 k d) := by
  unfold iblk
  rw [View.read_apply]
  obtain ⟨e0, e1⟩ := idx9 t
  refine congrArg (V m c main_arg8) (funext fun a => Fin.ext ?_)
  match a with
  | ⟨0, _⟩ =>
    show win0_9.index t (0 : Fin 2) * 192 + 1 * k.val = k.val
    omega
  | ⟨1, _⟩ =>
    show win0_9.index t (1 : Fin 2) * 64 + 1 * d.val = d.val
    omega

/-- The candidate's bias block is the whole one-row array. -/
theorem blk10 (c : Dev nD) (t : Fin cfg0.N) (d : Fin 64) :
    iblk m c 10 t (ix2 (0 : Fin 1) d) = V m c main_v5 (ix2 (0 : Fin 1) d) := by
  unfold iblk
  rw [View.read_apply]
  obtain ⟨e0, e1⟩ := idx10 t
  refine congrArg (V m c main_v5) (funext fun a => Fin.ext ?_)
  match a with
  | ⟨0, _⟩ =>
    show win0_10.index t (0 : Fin 2) * 1 + 1 * (0 : Fin 1).val = (0 : Fin 1).val
    omega
  | ⟨1, _⟩ =>
    show win0_10.index t (1 : Fin 2) * 64 + 1 * d.val = d.val
    omega

/-! ## The rows a chunk loads, and the accumulator's two halves -/

/-- The rectangle of a neighbour-state array that the body loads at point t: 4096 rows from the chunk's offset, all 64
    columns. -/
abbrev R (t : Fin cfg0.N) : Rect S8192x64 :=
  Rect.unit (s := S8192x64) (k0_off1 (grid0.coords t)) S4096x64.size (k0_off1_inb (grid0.coords t))

/-- The offset the body computes, decided over the grid: row 4096 · (t % 2), column 0. -/
theorem off1 : ∀ t : Fin cfg0.N, k0_off1 (grid0.coords t) (0 : Fin 2) = 4096 * (t.val % 2) ∧ k0_off1 (grid0.coords t) (1 : Fin 2) = 0 :=
  (by decide +kernel : ∀ t : Fin grid0.N, _)

/-- The same as one equation of offsets. -/
theorem off1_eq (t : Fin cfg0.N) : k0_off1 (grid0.coords t) = ![4096 * (t.val % 2), 0] := by
  obtain ⟨e0, e1⟩ := off1 t
  funext a
  match a with
  | ⟨0, _⟩ => exact e0
  | ⟨1, _⟩ => exact e1

/-- Entry (k, d) of the loaded rows is the array's entry (4096 · (t % 2) + k, d): offset + 1 · coordinate on each
    axis. -/
theorem chunk_idx (t : Fin cfg0.N) (k : Fin 4096) (d : Fin 64) :
    (R t).idx (ix2 k d) = ix2 (⟨4096 * (t.val % 2) + k.val, by omega⟩ : Fin 8192) d := by
  obtain ⟨e0, e1⟩ := off1 t
  funext a
  apply Fin.ext
  match a with
  | ⟨0, _⟩ =>
    show k0_off1 (grid0.coords t) (0 : Fin 2) + 1 * k.val = 4096 * (t.val % 2) + k.val
    omega
  | ⟨1, _⟩ =>
    show k0_off1 (grid0.coords t) (1 : Fin 2) + 1 * d.val = d.val
    omega

/-- The accumulator's left half: entry (p, d) is the accumulator's entry (p, d). -/
theorem left_idx (p : Fin 256) (d : Fin 64) :
    (Rect.unit (s := S256x128) ![0, 0] S256x64.size inb_S256x128_S256x64_0_0).idx (ix2 p d)
      = ix2 p (⟨d.val, by omega⟩ : Fin 128) := by
  funext a
  apply Fin.ext
  match a with
  | ⟨0, _⟩ =>
    show 0 + 1 * p.val = p.val
    omega
  | ⟨1, _⟩ =>
    show 0 + 1 * d.val = d.val
    omega

/-- The accumulator's right half: entry (p, d) is the accumulator's entry (p, 64 + d). -/
theorem right_idx (p : Fin 256) (d : Fin 64) :
    (Rect.unit (s := S256x128) ![0, 64] S256x64.size inb_S256x128_S256x64_0_64).idx (ix2 p d)
      = ix2 p (⟨64 + d.val, by omega⟩ : Fin 128) := by
  funext a
  apply Fin.ext
  match a with
  | ⟨0, _⟩ =>
    show 0 + 1 * p.val = p.val
    omega
  | ⟨1, _⟩ =>
    show 64 + 1 * d.val = 64 + d.val
    omega

end Cert.KernelIdeal.Gru.Blocks

end
-- ==== Proof.Spec.lean ====
/-
  One step of a gated graph propagator, index by index on the extended reals.

  From the incoming and outgoing neighbour states s_in, s_out (8192 rows of 64), the current node states c
  (4096 rows of 64), the two adjacency matrices A (2 × 4096 × 8192), and three gates' weights (192 × 64) and biases (64):

      a_in  p d = ∑ k, A 0 p k · s_in k d          a_out p d = ∑ k, A 1 p k · s_out k d
      r p q = σ (∑ k, [a_in p | a_out p | c p] k · W_r k q + b_r q)
      z p q = σ (∑ k, [a_in p | a_out p | c p] k · W_z k q + b_z q)
      h p q = tanh (∑ k, [a_in p | a_out p | r p · c p] k · W_h k q + b_h q)
      out p q = (1 − z p q) · c p q + z p q · h p q

  where [x | y | w] is the row of 192 entries made of the three rows of 64 side by side and σ x = 1 / (1 + e^(−x)).
  Every operation is the exact one on the extended reals; nothing here assumes an entry finite. The gating of one
  node (`cell`) is stated over plain rows and columns, so that a block of rows and the whole array are instances of
  one term. The one law a blocked evaluation of a_in and a_out needs is that a sum over 8192 terms is the sum of its
  two halves, which holds in any additive commutative monoid.
-/
import Idealize.ShloMosaic.PureOps.Ideal
import Idealize.ShloMosaic.Lib.ValueIdx

noncomputable section

namespace Cert.Gru

open Idealize.ShloMosaic Idealize.ShloMosaic.ValueIdx

/-- The shapes of the argument arrays: a neighbour-state array, the node states, the adjacency, a gate's weights, a
    gate's bias. -/
abbrev SState : Shape := ⟨3, ![1, 8192, 64]⟩
abbrev SCur : Shape := ⟨2, ![4096, 64]⟩
abbrev SAdj : Shape := ⟨3, ![2, 4096, 8192]⟩
abbrev SWeight : Shape := ⟨2, ![192, 64]⟩
abbrev SBias : Shape := ⟨1, ![64]⟩

/-- The float one, as the word both programs print. -/
abbrev one : EReal := Ideal.ofBits .f32 0x3F800000#32

/-- Three rows of 64 side by side, read at a column of the 192. -/
def joined (x y w : Fin 64 → EReal) (k : Fin 192) : EReal :=
  if h : k.val < 64 then x ⟨k.val, h⟩
  else if h' : k.val < 128 then y ⟨k.val - 64, by omega⟩
  else w ⟨k.val - 128, by omega⟩

/-- A gate's pre-activation: a row of 192 against a column of the gate's weights, plus the bias entry. -/
def pre (row col : Fin 192 → EReal) (b : EReal) : EReal := (∑ k : Fin 192, row k * col k) + b

/-! ## One node's gating, from its two aggregated messages and its current state -/

section Cell
variable (ain aout c : Fin 64 → EReal) (wr wz wh : Fin 192 → Fin 64 → EReal) (br bz bh : Fin 64 → EReal)

/-- The reset gate of one node at one feature. -/
def cellReset (d : Fin 64) : EReal := Ideal.logistic (pre (joined ain aout c) (fun k => wr k d) (br d))

/-- The update gate of one node at one feature. -/
def cellUpdate (q : Fin 64) : EReal := Ideal.logistic (pre (joined ain aout c) (fun k => wz k q) (bz q))

/-- The candidate state of one node at one feature: the current state enters through the reset gate. -/
def cellCand (q : Fin 64) : EReal :=
  Ideal.tanh (pre (joined ain aout fun d => cellReset ain aout c wr br d * c d) (fun k => wh k q) (bh q))

/-- The node's new state at one feature: the update gate mixes the current state and the candidate. -/
def cell (q : Fin 64) : EReal :=
  (one - cellUpdate ain aout c wz bz q) * c q + cellUpdate ain aout c wz bz q * cellCand ain aout c wr wh br bh q

end Cell

/-! ## The whole arrays -/

/-- Row `p` of adjacency matrix `e` against column `d` of a neighbour-state array: the aggregated message. -/
def agg (A : FVec Ideal SAdj .f32) (s : FVec Ideal SState .f32) (e : Fin 2) (p : Fin 4096) (d : Fin 64) : EReal :=
  ∑ k : Fin 8192, A (ix3 e p k) * s (ix3 (0 : Fin 1) k d)

/-- The new node states, as one function of the ten argument arrays. -/
def out (sIn sOut : FVec Ideal SState .f32) (cur : FVec Ideal SCur .f32) (A : FVec Ideal SAdj .f32)
    (Wr : FVec Ideal SWeight .f32) (br : FVec Ideal SBias .f32) (Wz : FVec Ideal SWeight .f32) (bz : FVec Ideal SBias .f32)
    (Wh : FVec Ideal SWeight .f32) (bh : FVec Ideal SBias .f32) : FVec Ideal SCur .f32 := fun i =>
  cell (agg A sIn 0 (i 0)) (agg A sOut 1 (i 0)) (fun d => cur (ix2 (i 0) d))
    (fun k d => Wr (ix2 k d)) (fun k d => Wz (ix2 k d)) (fun k d => Wh (ix2 k d))
    (fun d => br (ix1 d)) (fun d => bz (ix1 d)) (fun d => bh (ix1 d)) (i 1)

/-- A sum over 8192 terms is the sum over the first 4096 plus the sum over the last 4096. -/
theorem sum_halves {M : Type*} [AddCommMonoid M] (f : Fin 8192 → M) :
    ∑ k : Fin 8192, f k
      = (∑ k : Fin 4096, f ⟨k.val, by omega⟩) + ∑ k : Fin 4096, f ⟨4096 + k.val, by omega⟩ := by
  have h := Fin.sum_univ_add (a := 4096) (b := 4096) (fun k : Fin (4096 + 4096) => f ⟨k.val, by omega⟩)
  refine h.trans ?_
  rfl

end Cert.Gru

end
-- ==== Proof.LibMatmulEntry.lean ====
/-
  A plain matrix product read at an entry. At exact arithmetic a product of an m×K matrix by a K×n matrix into a zero
  accumulator, whose dimension numbers contract the left factor's columns against the right factor's rows, has at
  entry (p, q) the sum over k of left (p, k) · right (k, q). Stated for any dimension record of these three shapes,
  given where it sends an output index and a contraction index.
-/
import Idealize.ShloMosaic.Lib.ValueIdx
import Idealize.ShloMosaic.PureOps.Ideal.Laws

noncomputable section

namespace Cert.Lib.MatmulEntry

open Idealize.ShloMosaic Idealize.ShloMosaic.TcCoe Idealize.SL.Sem Idealize.ShloMosaic.ValueIdx

/-- A matrix product of an m×K by a K×n matrix into a zero accumulator, read at entry (p, q), is the sum over the
    one contracted axis of the products of row p of the left factor with column q of the right factor. The four
    hypotheses say where the product's dimension numbers send an output index and a contraction index: to (row, k)
    on the left and (k, column) on the right. -/
theorem matmul_zero_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.MatmulEntry

end
-- ==== Proof.PayloadAt.lean ====
/-
  The four values the kernel's body writes, read at an entry, in exact arithmetic on the extended reals.

  The body forms, from two blocks of the adjacency (256 × 4096 each) and two blocks of neighbour states
  (4096 × 64 each), the two matrix products side by side in a 256 × 128 array; it writes that array, or adds it to
  what was accumulated; and at the last step it gates the node states with the two accumulated halves. Here each of
  these values is read at an entry (p, q):

    * an entry of the side-by-side array is a sum over the 4096 contracted positions, of the left product where
      q < 64 and of the right product (at column q − 64) where 64 ≤ q;
    * the written array is that array, and the accumulated one is entrywise the old value plus it;
    * an entry of the gated output is the one-node gating `Cert.Gru.cell` of row p of the two halves and of the
      node states, against the three gates' weights and biases.

  Nothing beyond unfolding is used: a matrix product into a zero accumulator at an entry is the sum of products
  (`Cert.Lib.MatmulEntry.matmul_zero_ix2`), a concatenation along the columns at an entry is the piece whose span
  holds the column, a one-row array spread over the rows reads its one row, and the remaining operations act entry
  by entry.
-/
import proofs.«164506_g33844342292619_cont_8to1_b_602_23_alg».proof.Proof.Spec
import proofs.«164506_g33844342292619_cont_8to1_b_602_23_alg».proof.Proof.LibMatmulEntry
import proofs.«164506_g33844342292619_cont_8to1_b_602_23_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Gru.Pay

open Cert.KernelIdeal Cert.KernelIdeal.Gen Idealize.ShloMosaic Idealize.ShloMosaic.ValueIdx

/-! ## The two matrix products at an entry

Both products contract the left factor's columns against the right factor's rows and keep the left factor's rows and
the right factor's columns. The four facts per product say exactly that of its dimension numbers: an output index
(i₀, i₁) and a contraction index c are sent to (i₀, c) on the left and to (c, i₁) on the right. -/

/-- The 256 × 4096 by 4096 × 64 product: the left index keeps the output row. -/
theorem dotA_l0 (i : S256x64.Idx) (c : dot_S256x4096_S4096x64_S256x64_1_0_0_1_n_n.contr.Idx) :
    (dot_S256x4096_S4096x64_S256x64_1_0_0_1_n_n.lhsIdx i c 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl

/-- The left index's column is the contracted position. -/
theorem dotA_l1 (i : S256x64.Idx) (c : dot_S256x4096_S4096x64_S256x64_1_0_0_1_n_n.contr.Idx) :
    (dot_S256x4096_S4096x64_S256x64_1_0_0_1_n_n.lhsIdx i c 1).val = (c ⟨0, by decide⟩).val :=
  dot_S256x4096_S4096x64_S256x64_1_0_0_1_n_n.lhsIdx_val_of_single rfl i c

/-- The right index's row is the contracted position. -/
theorem dotA_r0 (i : S256x64.Idx) (c : dot_S256x4096_S4096x64_S256x64_1_0_0_1_n_n.contr.Idx) :
    (dot_S256x4096_S4096x64_S256x64_1_0_0_1_n_n.rhsIdx i c 0).val = (c ⟨0, by decide⟩).val :=
  dot_S256x4096_S4096x64_S256x64_1_0_0_1_n_n.rhsIdx_val_of_single rfl i c

/-- The right index keeps the output column. -/
theorem dotA_r1 (i : S256x64.Idx) (c : dot_S256x4096_S4096x64_S256x64_1_0_0_1_n_n.contr.Idx) :
    (dot_S256x4096_S4096x64_S256x64_1_0_0_1_n_n.rhsIdx i c 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- The 256 × 4096 by 4096 × 64 product into a zero accumulator, at entry (p, q): the sum over the 4096 contracted
    positions of left (p, k) · right (k, q). -/
theorem matmulA_apply (lhs : FVec Ideal S256x4096 .f32) (rhs : FVec Ideal S4096x64 .f32) (p : Fin 256) (q : Fin 64) :
    matmul dot_S256x4096_S4096x64_S256x64_1_0_0_1_n_n none lhs rhs (constant (F := Ideal) S256x64 .f32 0x00000000#32) (ix2 p q)
      = ∑ k : Fin 4096, lhs (ix2 p k) * rhs (ix2 k q) :=
  Cert.Lib.MatmulEntry.matmul_zero_ix2 dot_S256x4096_S4096x64_S256x64_1_0_0_1_n_n rfl rfl dotA_l0 dotA_l1 dotA_r0 dotA_r1
    lhs rhs p q

/-- The 256 × 192 by 192 × 64 product: the left index keeps the output row. -/
theorem dotB_l0 (i : S256x64.Idx) (c : dot_S256x192_S192x64_S256x64_1_0_0_1_n_n.contr.Idx) :
    (dot_S256x192_S192x64_S256x64_1_0_0_1_n_n.lhsIdx i c 0).val = (i 0).val := by
  unfold DotDims.lhsIdx
  rw [dif_neg (show ¬(0 : Fin S256x192.rank) ∈ dot_S256x192_S192x64_S256x64_1_0_0_1_n_n.lhsBatch by decide),
    dif_pos (show (0 : Fin S256x192.rank) ∈ dot_S256x192_S192x64_S256x64_1_0_0_1_n_n.lhsNonContracting by decide)]
  rfl

/-- The left index's column is the contracted position. -/
theorem dotB_l1 (i : S256x64.Idx) (c : dot_S256x192_S192x64_S256x64_1_0_0_1_n_n.contr.Idx) :
    (dot_S256x192_S192x64_S256x64_1_0_0_1_n_n.lhsIdx i c 1).val = (c ⟨0, by decide⟩).val :=
  dot_S256x192_S192x64_S256x64_1_0_0_1_n_n.lhsIdx_val_of_single rfl i c

/-- The right index's row is the contracted position. -/
theorem dotB_r0 (i : S256x64.Idx) (c : dot_S256x192_S192x64_S256x64_1_0_0_1_n_n.contr.Idx) :
    (dot_S256x192_S192x64_S256x64_1_0_0_1_n_n.rhsIdx i c 0).val = (c ⟨0, by decide⟩).val :=
  dot_S256x192_S192x64_S256x64_1_0_0_1_n_n.rhsIdx_val_of_single rfl i c

/-- The right index keeps the output column. -/
theorem dotB_r1 (i : S256x64.Idx) (c : dot_S256x192_S192x64_S256x64_1_0_0_1_n_n.contr.Idx) :
    (dot_S256x192_S192x64_S256x64_1_0_0_1_n_n.rhsIdx i c 1).val = (i 1).val := by
  unfold DotDims.rhsIdx
  rw [dif_neg (show ¬(1 : Fin S192x64.rank) ∈ dot_S256x192_S192x64_S256x64_1_0_0_1_n_n.rhsBatch by decide),
    dif_pos (show (1 : Fin S192x64.rank) ∈ dot_S256x192_S192x64_S256x64_1_0_0_1_n_n.rhsNonContracting by decide)]
  rfl

/-- The 256 × 192 by 192 × 64 product into a zero accumulator, at entry (p, q): the sum over the 192 contracted
    positions of left (p, k) · right (k, q). -/
theorem matmulB_apply (lhs : FVec Ideal S256x192 .f32) (rhs : FVec Ideal S192x64 .f32) (p : Fin 256) (q : Fin 64) :
    matmul dot_S256x192_S192x64_S256x64_1_0_0_1_n_n none lhs rhs (constant (F := Ideal) S256x64 .f32 0x00000000#32) (ix2 p q)
      = ∑ k : Fin 192, lhs (ix2 p k) * rhs (ix2 k q) :=
  Cert.Lib.MatmulEntry.matmul_zero_ix2 dot_S256x192_S192x64_S256x64_1_0_0_1_n_n rfl rfl dotB_l0 dotB_l1 dotB_r0 dotB_r1
    lhs rhs p q

/-! ## Concatenations along the columns at an entry

Pieces of 64 columns laid side by side: column q of the whole lies in the piece whose span holds q, at q less the
columns before that piece; the row is unchanged. -/

/-- Two pieces, a column below 64: the first piece at the same entry. -/
theorem cat2_left (x y : FVec Ideal S256x64 .f32) (p : Fin 256) (q : Fin 128) (hq : q.val < 64) :
    concatenate S256x128 1 [⟨S256x64, x⟩, ⟨S256x64, y⟩] concatenates_S256x64_S256x64_S256x128_d1 (ix2 p q)
      = x (ix2 p ⟨q.val, hq⟩) := by
  refine concatenate_pair_apply_left 1 x y concatenates_S256x64_S256x64_S256x128_d1 (ix2 p q) rfl (ix2 p ⟨q.val, hq⟩)
    fun b => ?_
  match b with
  | ⟨0, _⟩ => rfl
  | ⟨1, _⟩ => rfl

/-- Two pieces, a column from 64 on: the second piece at column q − 64. -/
theorem cat2_right (x y : FVec Ideal S256x64 .f32) (p : Fin 256) (q : Fin 128) (hq : 64 ≤ q.val) :
    concatenate S256x128 1 [⟨S256x64, x⟩, ⟨S256x64, y⟩] concatenates_S256x64_S256x64_S256x128_d1 (ix2 p q)
      = y (ix2 p ⟨q.val - 64, by omega⟩) := by
  refine concatenate_pair_apply_right 1 x y concatenates_S256x64_S256x64_S256x128_d1 (ix2 p q) rfl rfl
    (ix2 p ⟨q.val - 64, by omega⟩) (fun b hb => ?_) ?_
  · match b with
    | ⟨0, _⟩ => rfl
    | ⟨1, _⟩ => exact absurd rfl hb
  · show q.val - 64 + 64 = q.val
    omega

/-- Three pieces: row p of the whole, at column k of the 192, is the three rows p of the pieces side by side
    (`Cert.Gru.joined`): the first piece where k < 64, the second at k − 64 where 64 ≤ k < 128, the third at k − 128
    from 128 on. -/
theorem cat3_apply (x y w : FVec Ideal S256x64 .f32) (p : Fin 256) (k : Fin 192) :
    concatenate S256x192 1 [⟨S256x64, x⟩, ⟨S256x64, y⟩, ⟨S256x64, w⟩] concatenates_S256x64_S256x64_S256x64_S256x192_d1
        (ix2 p k)
      = Cert.Gru.joined (fun d => x (ix2 p d)) (fun d => y (ix2 p d)) (fun d => w (ix2 p d)) k := by
  unfold Cert.Gru.joined
  by_cases h1 : k.val < 64
  · rw [dif_pos h1]
    -- no columns come before the first piece
    refine concatenate_apply_piece (t := S256x192) 1 [⟨S256x64, x⟩, ⟨S256x64, y⟩, ⟨S256x64, w⟩]
      concatenates_S256x64_S256x64_S256x64_S256x192_d1 (ix2 p k) 0 (by show (0 : Nat) < 3; omega) S256x64 x rfl rfl 0 rfl
      (ix2 p ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 128
    · rw [dif_pos h2]
      -- 64 columns come before the second piece
      refine concatenate_apply_piece (t := S256x192) 1 [⟨S256x64, x⟩, ⟨S256x64, y⟩, ⟨S256x64, w⟩]
        concatenates_S256x64_S256x64_S256x64_S256x192_d1 (ix2 p k) 1 (by show (1 : Nat) < 3; omega) S256x64 y rfl rfl 64 rfl
        (ix2 p ⟨k.val - 64, by omega⟩) (fun b hb => ?_) ?_
      · match b with
        | ⟨0, _⟩ => rfl
        | ⟨1, _⟩ => exact absurd rfl hb
      · show 64 + (k.val - 64) = k.val
        omega
    · rw [dif_neg h2]
      -- 128 columns come before the third piece
      refine concatenate_apply_piece (t := S256x192) 1 [⟨S256x64, x⟩, ⟨S256x64, y⟩, ⟨S256x64, w⟩]
        concatenates_S256x64_S256x64_S256x64_S256x192_d1 (ix2 p k) 2 (by show (2 : Nat) < 3; omega) S256x64 w rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega

/-! ## A bias row spread over the rows -/

/-- A 1 × 64 array, recast to its own shape (the identity) and spread over 256 rows, reads at (p, q) its one row at
    q. -/
theorem bias_apply (v : FVec Ideal S1x64 .f32) (p : Fin 256) (q : Fin 64) :
    broadcastTo S256x64 (shapeCast S1x64 v shapeCasts_S1x64_S1x64) broadcasts_S1x64_S256x64 (ix2 p q)
      = v (ix2 (0 : Fin 1) q) := by
  rw [shapeCast_self]
  exact broadcastTo_1b_ab_apply v broadcasts_S1x64_S256x64 p q

/-! ## The side-by-side products, written or accumulated -/

/-- An entry in the left 64 columns of the side-by-side array: the first product's entry, a sum over the 4096
    contracted positions. The recasts of the factors to their own shapes are the identity. -/
theorem pay1_left (v0 v7 : Vec Ideal S256x4096 .f32) (v4 v11 : Vec Ideal S4096x64 .f32) (p : Fin 256) (q : Fin 128)
    (hq : q.val < 64) :
    k0_pay1 (F := Ideal) v0 v4 v7 v11 (ix2 p q) = ∑ k : Fin 4096, v0 (ix2 p k) * v4 (ix2 k ⟨q.val, hq⟩) := by
  unfold k0_pay1
  refine (cat2_left _ _ p q hq).trans ?_
  rw [shapeCast_self v0, shapeCast_self v4]
  exact matmulA_apply v0 v4 p ⟨q.val, hq⟩

/-- An entry in the right 64 columns: the second product's entry at column q − 64. -/
theorem pay1_right (v0 v7 : Vec Ideal S256x4096 .f32) (v4 v11 : Vec Ideal S4096x64 .f32) (p : Fin 256) (q : Fin 128)
    (hq : 64 ≤ q.val) :
    k0_pay1 (F := Ideal) v0 v4 v7 v11 (ix2 p q)
      = ∑ k : Fin 4096, v7 (ix2 p k) * v11 (ix2 k ⟨q.val - 64, by omega⟩) := by
  unfold k0_pay1
  refine (cat2_right _ _ p q hq).trans ?_
  rw [shapeCast_self v7, shapeCast_self v11]
  exact matmulA_apply v7 v11 p ⟨q.val - 64, by omega⟩

/-- The array written at the first step is the side-by-side array: a recast to the same shape is the identity. -/
theorem pay2_eq (v0 v7 : Vec Ideal S256x4096 .f32) (v4 v11 : Vec Ideal S4096x64 .f32) :
    k0_pay2 (F := Ideal) v0 v4 v7 v11 = k0_pay1 (F := Ideal) v0 v4 v7 v11 := by
  unfold k0_pay2
  exact shapeCast_self _ _

/-- The array written at a later step is, entry by entry, the accumulated value plus the side-by-side array. -/
theorem pay3_apply (v0 v7 : Vec Ideal S256x4096 .f32) (v4 v11 : Vec Ideal S4096x64 .f32) (v24 : Vec Ideal S256x128 .f32)
    (j : S256x128.Idx) :
    k0_pay3 (F := Ideal) v0 v4 v7 v11 v24 j = v24 j + k0_pay1 (F := Ideal) v0 v4 v7 v11 j := by
  unfold k0_pay3
  exact congrFun (shapeCast_self _ _) j

/-! ## The gated output -/

/-- A gate's pre-activation at (p, q): the three pieces side by side, times the gate's weights, plus the gate's bias
    spread over the rows, is row p of the joined pieces against column q of the weights, plus the bias at q
    (`Cert.Gru.pre`). The sum's terms agree one by one, by `cat3_apply`. -/
theorem gate_apply (x y w : FVec Ideal S256x64 .f32) (W : FVec Ideal S192x64 .f32) (b : FVec Ideal S1x64 .f32)
    (p : Fin 256) (q : Fin 64) :
    addf (matmul dot_S256x192_S192x64_S256x64_1_0_0_1_n_n none
        (concatenate S256x192 1 [⟨S256x64, x⟩, ⟨S256x64, y⟩, ⟨S256x64, w⟩] concatenates_S256x64_S256x64_S256x64_S256x192_d1) W
        (constant (F := Ideal) S256x64 .f32 0x00000000#32))
      (broadcastTo S256x64 (shapeCast S1x64 b shapeCasts_S1x64_S1x64) broadcasts_S1x64_S256x64) (ix2 p q)
      = Cert.Gru.pre (Cert.Gru.joined (fun d => x (ix2 p d)) (fun d => y (ix2 p d)) (fun d => w (ix2 p d)))
          (fun k => W (ix2 k q)) (b (ix2 (0 : Fin 1) q)) := by
  unfold Cert.Gru.pre
  refine (addf_apply _ _ _).trans ?_
  rw [matmulB_apply, bias_apply]
  refine congrArg (· + b (ix2 (0 : Fin 1) q)) (Finset.sum_congr rfl fun k _ => ?_)
  exact congrArg (· * W (ix2 k q)) (cat3_apply x y w p k)

/-- An entry of the gated output is the one-node gating of row p. The logistic, the hyperbolic tangent, the
    products, the difference from one and the final sum act entry by entry, in the order the gating is written in:
    (1 − z) · c + z · h, with r · c inside the candidate. So it is enough that the three pre-activations agree: the
    reset gate's at every feature d of the row (it enters the candidate's third piece as r · c), the update gate's and
    the candidate's at q. -/
theorem pay4_apply (v24 v25 v26 : Vec Ideal S256x64 .f32) (v28 v35 v44 : Vec Ideal S192x64 .f32)
    (v30 v37 v46 : Vec Ideal S1x64 .f32) (p : Fin 256) (q : Fin 64) :
    k0_pay4 (F := Ideal) v24 v25 v26 v28 v30 v35 v37 v44 v46 (ix2 p q)
      = Cert.Gru.cell (fun d => v24 (ix2 p d)) (fun d => v25 (ix2 p d)) (fun d => v26 (ix2 p d))
          (fun k d => v28 (ix2 k d)) (fun k d => v35 (ix2 k d)) (fun k d => v44 (ix2 k d))
          (fun d => v30 (ix2 (0 : Fin 1) d)) (fun d => v37 (ix2 (0 : Fin 1) d)) (fun d => v46 (ix2 (0 : Fin 1) d)) q := by
  unfold k0_pay4 Cert.Gru.cell Cert.Gru.cellCand Cert.Gru.cellUpdate Cert.Gru.cellReset
  -- the reset gate at every feature of the row
  have hr : ∀ d : Fin 64, _ = Ideal.logistic (Cert.Gru.pre
      (Cert.Gru.joined (fun d => v24 (ix2 p d)) (fun d => v25 (ix2 p d)) (fun d => v26 (ix2 p d)))
      (fun k => v28 (ix2 k d)) (v30 (ix2 (0 : Fin 1) d))) :=
    fun d => congrArg Ideal.logistic (gate_apply v24 v25 v26 v28 v30 p d)
  -- the update gate at q
  have hz := congrArg Ideal.logistic (gate_apply v24 v25 v26 v35 v37 p q)
  -- the candidate at q: its third piece is, feature by feature, the reset gate times the node state
  have hc := congrArg Ideal.tanh ((gate_apply v24 v25 (mulf (logistic (addf (matmul dot_S256x192_S192x64_S256x64_1_0_0_1_n_n none
        (concatenate S256x192 1 [⟨S256x64, v24⟩, ⟨S256x64, v25⟩, ⟨S256x64, v26⟩] concatenates_S256x64_S256x64_S256x64_S256x192_d1) v28
        (constant (F := Ideal) S256x64 .f32 0x00000000#32))
      (broadcastTo S256x64 (shapeCast S1x64 v30 shapeCasts_S1x64_S1x64) broadcasts_S1x64_S256x64))) v26) v44 v46 p q).trans
    (congrArg (fun w => Cert.Gru.pre (Cert.Gru.joined (fun d => v24 (ix2 p d)) (fun d => v25 (ix2 p d)) w)
        (fun k => v44 (ix2 k q)) (v46 (ix2 (0 : Fin 1) q)))
      (funext fun d => congrArg (· * v26 (ix2 p d)) (hr d))))
  -- (1 − z) · c + z · h, with z and h replaced by the update gate and the candidate
  exact congrArg₂ (· + ·) (congrArg (fun z => (Cert.Gru.one - z) * v26 (ix2 p q)) hz) (congrArg₂ (· * ·) hz hc)

end Cert.Gru.Pay

end
-- ==== Proof.KernelValue.lean ====
/-
  The propagator kernel's result, at exact arithmetic: the result array ends holding the specification's array.

  Take an odd point, the last chunk of row block i, and a row p of the block, r = 256 · i + p. The accumulator's left
  half at (p, d) is the first chunk's partial product plus the last chunk's: the sum over the first 4096 columns of
  adjacency plane 0's row r against column d of the incoming states, plus the same over the last 4096; a sum over 8192
  terms is the sum of its halves, so this is the aggregated incoming message. The right half is the outgoing one, from
  plane 1 (the second window's rows are those of the first, 4096 further down the flattened adjacency). The row block
  of node states at (p, d) is the node states at (r, d); the weights are read whole; a bias block's one row is the
  bias. The body's gating of these is the specification's gating of node r. Each odd point writes its block back,
  and the sixteen blocks tile the result array.
-/
import proofs.«164506_g33844342292619_cont_8to1_b_602_23_alg».proof.Proof.KernelPieces
import proofs.«164506_g33844342292619_cont_8to1_b_602_23_alg».proof.Proof.BlocksAt
import proofs.«164506_g33844342292619_cont_8to1_b_602_23_alg».proof.Proof.PayloadAt

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gru.Blocks Cert.Gru.Pay Idealize.ShloMosaic.ValueIdx

variable (m : (ℓ : Loc nD τ sig) → Buf (Elt Ideal) ℓ) (ρ : Dev nD → PrngReg)

/-- The launch memory's ten argument arrays on core `c`, as arrays of extended reals. -/
abbrev aIn (c : Dev nD) : FVec Ideal Cert.Gru.SState .f32 := m ((c : Thread nD τ).loc main_arg0)
abbrev aOut (c : Dev nD) : FVec Ideal Cert.Gru.SState .f32 := m ((c : Thread nD τ).loc main_arg1)
abbrev aCur (c : Dev nD) : FVec Ideal Cert.Gru.SCur .f32 := m ((c : Thread nD τ).loc main_arg2)
abbrev aAdj (c : Dev nD) : FVec Ideal Cert.Gru.SAdj .f32 := m ((c : Thread nD τ).loc main_arg3)
abbrev aWr (c : Dev nD) : FVec Ideal Cert.Gru.SWeight .f32 := m ((c : Thread nD τ).loc main_arg4)
abbrev aBr (c : Dev nD) : FVec Ideal Cert.Gru.SBias .f32 := m ((c : Thread nD τ).loc main_arg5)
abbrev aWz (c : Dev nD) : FVec Ideal Cert.Gru.SWeight .f32 := m ((c : Thread nD τ).loc main_arg6)
abbrev aBz (c : Dev nD) : FVec Ideal Cert.Gru.SBias .f32 := m ((c : Thread nD τ).loc main_arg7)
abbrev aWh (c : Dev nD) : FVec Ideal Cert.Gru.SWeight .f32 := m ((c : Thread nD τ).loc main_arg8)
abbrev aBh (c : Dev nD) : FVec Ideal Cert.Gru.SBias .f32 := m ((c : Thread nD τ).loc main_arg9)

/-- The specification's array of the launch memory's ten arguments on core `c`. -/
abbrev specOut (c : Dev nD) : Buf (Elt Ideal) ((c : Thread nD τ).loc main_v6) :=
  Cert.Gru.out (aIn m c) (aOut m c) (aCur m c) (aAdj m c)
    (aWr m c) (aBr m c) (aWz m c) (aBz m c) (aWh m c) (aBh m c)

theorem N32 : cfg0.N = 32 := N_0

/-- Row `p` of point `t`'s row block, as a row of the node arrays. -/
abbrev rowOf (t : Fin cfg0.N) (p : Fin 256) : Fin 4096 :=
  ⟨256 * (t.val / 2) + p.val, by have := t.isLt; have := N32; omega⟩
/-- Column `k` of point `t`'s chunk, as a column of the adjacency. -/
abbrev colOf (t : Fin cfg0.N) (k : Fin 4096) : Fin 8192 :=
  ⟨4096 * (t.val % 2) + k.val, by omega⟩

/-- A chunk's partial product for the incoming message: the chunk's columns of adjacency plane 0 against the
    chunk's rows of the incoming states. -/
theorem partials_left (c : Dev nD) (t : Fin cfg0.N) (p : Fin 256) (q : Fin 128) (hq : q.val < 64) :
    partials m c t (ix2 p q)
      = ∑ k : Fin 4096, (aAdj m c) (ix3 (0 : Fin 2) (rowOf t p) (colOf t k))
          * (aIn m c) (ix3 (0 : Fin 1) (colOf t k) (⟨q.val, hq⟩ : Fin 64)) := by
  unfold partials
  rw [pay1_left _ _ _ _ p q hq]
  refine Finset.sum_congr rfl fun k _ => ?_
  have hrow : (⟨256 * (t.val / 2) + p.val, by have := t.isLt; have := N32; omega⟩ : Fin 8192)
      = ⟨4096 * (0 : Fin 2).val + (rowOf t p).val,
          by have := (rowOf t p).isLt; have h0 : (0 : Fin 2).val = 0 := rfl; omega⟩ :=
    Fin.ext (by show 256 * (t.val / 2) + p.val = 4096 * 0 + (256 * (t.val / 2) + p.val); omega)
  refine congrArg₂ (· * ·) ?_ ?_
  · rw [blk0 m c t p k]
    exact (congrArg (fun r => V m c main_v2 (ix2 r (colOf t k))) hrow).trans (V_v2 m c (0 : Fin 2) (rowOf t p) (colOf t k))
  · show (iblk m c 2 t) ((chunkRect t).idx (ix2 k (⟨q.val, hq⟩ : Fin 64))) = _
    rw [chunk_idx t k ⟨q.val, hq⟩, blk2, V_v0]

/-- The same for the outgoing message: adjacency plane 1, the outgoing states. -/
theorem partials_right (c : Dev nD) (t : Fin cfg0.N) (p : Fin 256) (q : Fin 128) (hq : 64 ≤ q.val) :
    partials m c t (ix2 p q)
      = ∑ k : Fin 4096, (aAdj m c) (ix3 (1 : Fin 2) (rowOf t p) (colOf t k))
          * (aOut m c) (ix3 (0 : Fin 1) (colOf t k) (⟨q.val - 64, by omega⟩ : Fin 64)) := by
  unfold partials
  rw [pay1_right _ _ _ _ p q hq]
  refine Finset.sum_congr rfl fun k _ => ?_
  have hrow : (⟨4096 + 256 * (t.val / 2) + p.val, by have := t.isLt; have := N32; omega⟩ : Fin 8192)
      = ⟨4096 * (1 : Fin 2).val + (rowOf t p).val,
          by have := (rowOf t p).isLt; have h1 : (1 : Fin 2).val = 1 := rfl; omega⟩ :=
    Fin.ext (by show 4096 + 256 * (t.val / 2) + p.val = 4096 * 1 + (256 * (t.val / 2) + p.val); omega)
  refine congrArg₂ (· * ·) ?_ ?_
  · rw [blk1 m c t p k]
    exact (congrArg (fun r => V m c main_v2 (ix2 r (colOf t k))) hrow).trans (V_v2 m c (1 : Fin 2) (rowOf t p) (colOf t k))
  · show (iblk m c 3 t) ((chunkRect t).idx (ix2 k (⟨q.val - 64, by omega⟩ : Fin 64))) = _
    rw [chunk_idx t k ⟨q.val - 64, by omega⟩, blk3, V_v1]

/-- At an odd point the accumulator holds the two chunks' partial products added. -/
theorem acc_eq (c : Dev nD) (t : Fin cfg0.N) (ho : t.val % 2 = 1) (j : S256x128.Idx) :
    scrOdd m c t ho j = partials m c (prev t ho) j + partials m c t j := by
  rw [scrOdd_eq, pay3_apply, scrEven_eq, pay2_eq]

/-- Its left half is the aggregated incoming message of the block's rows. -/
theorem acc_left (c : Dev nD) (t : Fin cfg0.N) (ho : t.val % 2 = 1) (p : Fin 256) (d : Fin 64) :
    View.ld (scrOdd m c t ho) leftRect (ix2 p d) = Cert.Gru.agg (aAdj m c) (aIn m c) 0 (rowOf t p) d := by
  show scrOdd m c t ho (leftRect.idx (ix2 p d)) = _
  rw [left_idx p d, acc_eq, partials_left m c (prev t ho) p _ d.isLt, partials_left m c t p _ d.isLt]
  unfold Cert.Gru.agg
  rw [Cert.Gru.sum_halves]
  have hp2 : (prev t ho).val / 2 = t.val / 2 := by show (t.val - 1) / 2 = t.val / 2; omega
  have hp0 : (prev t ho).val % 2 = 0 := prev_even t ho
  congr 1
  · refine Finset.sum_congr rfl fun k _ => ?_
    congr 2 <;> (funext a; apply Fin.ext; fin_cases a <;> simp [rowOf, colOf, ix3, hp2, hp0])
  · refine Finset.sum_congr rfl fun k _ => ?_
    congr 2 <;> (funext a; apply Fin.ext; fin_cases a <;> simp [rowOf, colOf, ix3, ho])

/-- Its right half is the aggregated outgoing message. -/
theorem acc_right (c : Dev nD) (t : Fin cfg0.N) (ho : t.val % 2 = 1) (p : Fin 256) (d : Fin 64) :
    View.ld (scrOdd m c t ho) rightRect (ix2 p d) = Cert.Gru.agg (aAdj m c) (aOut m c) 1 (rowOf t p) d := by
  show scrOdd m c t ho (rightRect.idx (ix2 p d)) = _
  rw [right_idx p d, acc_eq, partials_right m c (prev t ho) p _ (by simp), partials_right m c t p _ (by simp)]
  unfold Cert.Gru.agg
  rw [Cert.Gru.sum_halves]
  have hp2 : (prev t ho).val / 2 = t.val / 2 := by show (t.val - 1) / 2 = t.val / 2; omega
  have hp0 : (prev t ho).val % 2 = 0 := prev_even t ho
  congr 1
  · refine Finset.sum_congr rfl fun k _ => ?_
    congr 2 <;> (funext a; apply Fin.ext; fin_cases a <;> simp [rowOf, colOf, ix3, hp2, hp0])
  · refine Finset.sum_congr rfl fun k _ => ?_
    congr 2 <;> (funext a; apply Fin.ext; fin_cases a <;> simp [rowOf, colOf, ix3, ho])

/-- What an odd point stores into the output window's buffer is the specification's array on the block's rows. -/
theorem out_at (c : Dev nD) (t : Fin cfg0.N) (ho : t.val % 2 = 1) (p : Fin 256) (q : Fin 64) :
    outOdd m c t ho (ix2 p q) = specOut m c (ix2 (rowOf t p) q) := by
  rw [outOdd_eq, pay4_apply]
  have e1 : (fun d => View.ld (scrOdd m c t ho) leftRect (ix2 p d)) = Cert.Gru.agg (aAdj m c) (aIn m c) 0 (rowOf t p) :=
    funext fun d => acc_left m c t ho p d
  have e2 : (fun d => View.ld (scrOdd m c t ho) rightRect (ix2 p d)) = Cert.Gru.agg (aAdj m c) (aOut m c) 1 (rowOf t p) :=
    funext fun d => acc_right m c t ho p d
  have e3 : (fun d => iblk m c 4 t (ix2 p d)) = fun d => (aCur m c) (ix2 (rowOf t p) d) :=
    funext fun d => by rw [blk4, V_a2]
  have e4 : (fun (k : Fin 192) (d : Fin 64) => iblk m c 5 t (ix2 k d)) = fun k d => (aWr m c) (ix2 k d) :=
    funext fun k => funext fun d => by rw [blk5, V_a4]
  have e5 : (fun (k : Fin 192) (d : Fin 64) => iblk m c 7 t (ix2 k d)) = fun k d => (aWz m c) (ix2 k d) :=
    funext fun k => funext fun d => by rw [blk7, V_a6]
  have e6 : (fun (k : Fin 192) (d : Fin 64) => iblk m c 9 t (ix2 k d)) = fun k d => (aWh m c) (ix2 k d) :=
    funext fun k => funext fun d => by rw [blk9, V_a8]
  have e7 : (fun d => iblk m c 6 t (ix2 (0 : Fin 1) d)) = fun d => (aBr m c) (ix1 d) :=
    funext fun d => by rw [blk6, V_v3]
  have e8 : (fun d => iblk m c 8 t (ix2 (0 : Fin 1) d)) = fun d => (aBz m c) (ix1 d) :=
    funext fun d => by rw [blk8, V_v4]
  have e9 : (fun d => iblk m c 10 t (ix2 (0 : Fin 1) d)) = fun d => (aBh m c) (ix1 d) :=
    funext fun d => by rw [blk10, V_v5]
  rw [e1, e2, e3, e4, e5, e6, e7, e8, e9]
  rfl

/-! ## From the blocks to the array -/

/-- The output window's block index at a point: the row block, column block 0. -/
theorem idx11 : ∀ t : Fin cfg0.N, win0_11.index t (0 : Fin 2) = t.val / 2 ∧ win0_11.index t (1 : Fin 2) = 0 :=
  (by decide +kernel : ∀ t : Fin grid0.N, win0_11.index t (0 : Fin 2) = t.val / 2 ∧ win0_11.index t (1 : Fin 2) = 0)

/-- What an odd point writes back is its block of the specification's array. -/
theorem flushed_eq (c : Dev nD) (t : Fin cfg0.N) (hf : (cfg0.win 11).flush t = true) :
    (dats m 0 c).flushed 11 t = ((cfg0.win 11).blk t).view.read (Elt Ideal) (specOut m c) := by
  have ho : t.val % 2 = 1 := (flush0_11 t).mp hf
  show (cfg0.win 11).cut (grid0.coords t) ((dats m 0 c).after 11 t) = _
  rw [after11, outAt_odd m c t ho]
  funext j
  obtain ⟨p, q, rfl⟩ : ∃ (p : Fin 256) (q : Fin 64), j = ix2 p q := ⟨j 0, j 1, eq_ix2 j⟩
  rw [View.read_apply]
  show outOdd m c t ho (ix2 p q) = specOut m c (((cfg0.win 11).blk t).view.emb (ix2 p q))
  rw [out_at m c t ho p q]
  obtain ⟨e0, e1⟩ := idx11 t
  refine congrArg (specOut m c) (funext fun a => Fin.ext ?_)
  match a with
  | ⟨0, _⟩ => show 256 * (t.val / 2) + p.val = win0_11.index t (0 : Fin 2) * 256 + 1 * p.val; rw [e0]; omega
  | ⟨1, _⟩ => show q.val = win0_11.index t (1 : Fin 2) * 64 + 1 * q.val; rw [e1]; omega

/-- Every entry of the result array is in the block some odd point writes back: row r is in row block r / 256. -/
theorem cover11 (i : S4096x64.Idx) :
    ∃ t : Fin cfg0.N, (cfg0.win 11).flush t = true ∧ i ∈ ((cfg0.win 11).blk t).view.set := by
  have hi0 : (i 0).val < 4096 := (i 0).isLt
  have hi1 : (i 1).val < 64 := (i 1).isLt
  have hlt : 2 * ((i 0).val / 256) + 1 < cfg0.N := by rw [N32]; omega
  refine ⟨⟨2 * ((i 0).val / 256) + 1, hlt⟩, (flush0_11 _).mpr (by show (2 * ((i 0).val / 256) + 1) % 2 = 1; omega), ?_⟩
  show i ∈ ((View.whole main_v6).slice (win0_11.rect ⟨2 * ((i 0).val / 256) + 1, hlt⟩)).set
  rw [View.set_slice_whole, Rect.mem_set_unit]
  obtain ⟨e0, e1⟩ := idx11 ⟨2 * ((i 0).val / 256) + 1, hlt⟩
  intro a
  match a with
  | ⟨0, _⟩ =>
    show win0_11.index ⟨2 * ((i 0).val / 256) + 1, hlt⟩ (0 : Fin 2) * 256 ≤ (i 0).val
      ∧ (i 0).val < win0_11.index ⟨2 * ((i 0).val / 256) + 1, hlt⟩ (0 : Fin 2) * 256 + 256
    rw [e0]; dsimp only; omega
  | ⟨1, _⟩ =>
    show win0_11.index ⟨2 * ((i 0).val / 256) + 1, hlt⟩ (1 : Fin 2) * 64 ≤ (i 1).val
      ∧ (i 1).val < win0_11.index ⟨2 * ((i 0).val / 256) + 1, hlt⟩ (1 : Fin 2) * 64 + 64
    rw [e1]; omega

/-- The result array after the run is the specification's array. -/
theorem final (c : Dev nD) : (dats m 0 c).arrAt 11 cfg0.N = specOut m c :=
  (dats m 0 c).arrAt_eq_of_cover 11 (specOut m c) (flushed_eq m c) (cover11)

/-- The run, read: the result array at the specification's array of the arguments, the arguments unchanged. -/
theorem run_value : θ_run defs (onTc (τ := τ) (main (F := Ideal))) ⟨m, fun _ => 0, ρ⟩ (fun r => ∀ c : Dev nD,
      r.2.mem ((c.tc : Thread nD τ).loc main_v6) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).1 11).trans (final m c),
     ((h c).2 main_arg0 (Pipeline.mem_restRefs_of main_arg0 rfl (by decide))).trans (V_arg0 m c),
     ((h c).2 main_arg1 (Pipeline.mem_restRefs_of main_arg1 rfl (by decide))).trans (V_arg1 m c),
     ((h c).1 4).trans (((dats m 0 c).arrAt_in 4 rfl _).trans ((A_eq m c 4).trans (V_arg2 m c))),
     ((h c).2 main_arg3 (Pipeline.mem_restRefs_of main_arg3 rfl (by decide))).trans (V_arg3 m c),
     ((h c).1 5).trans (((dats m 0 c).arrAt_in 5 rfl _).trans ((A_eq m c 5).trans (V_arg4 m c))),
     ((h c).2 main_arg5 (Pipeline.mem_restRefs_of main_arg5 rfl (by decide))).trans (V_arg5 m c),
     ((h c).1 7).trans (((dats m 0 c).arrAt_in 7 rfl _).trans ((A_eq m c 7).trans (V_arg6 m c))),
     ((h c).2 main_arg7 (Pipeline.mem_restRefs_of main_arg7 rfl (by decide))).trans (V_arg7 m c),
     ((h c).1 9).trans (((dats m 0 c).arrAt_in 9 rfl _).trans ((A_eq m c 9).trans (V_arg8 m c))),
     ((h c).2 main_arg9 (Pipeline.mem_restRefs_of main_arg9 rfl (by decide))).trans (V_arg9 m c)⟩) (run_main m ρ)

end Cert.KernelIdeal.Gru

end
-- ==== Proof.RefIsSpec.lean ====
/-
  The reference program's result is the specification's array.

  The reference computes, operation by operation, the two aggregated messages (each a row of one adjacency plane
  against a column of a neighbour-state array, a sum over 8192 terms), joins them with the current state into rows of
  192, forms each gate's pre-activation (a joined row against a column of the gate's weights, plus the bias entry),
  applies 1 / (1 + e^(−x)) to the reset and update pre-activations and tanh to the candidate's, and mixes
  (1 − z) · c + z · h. Each lemma below reads one of those stages at row `p` and column `q` (or `k`, `d`) and says it
  is the matching term of the specification; nothing but unfolding is used, since the specification keeps the
  reference's own order of operations. The only fact about a float word is that the pattern of 1.0 is the extended
  real one, which turns 1 / (1 + e^(−x)) with that word into the logistic function.
-/
import proofs.«164506_g33844342292619_cont_8to1_b_602_23_alg».proof.Proof.Spec
import proofs.«164506_g33844342292619_cont_8to1_b_602_23_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws

noncomputable section

namespace Cert.Gru.Ref

open Cert.ReferenceIdeal Cert.ReferenceIdeal.Read Idealize.ShloMosaic Idealize.ShloMosaic.ValueIdx

/-- The first aggregated message: row `p` of the adjacency's plane 0 against column `d` of the incoming states. -/
theorem v6_at (x0 : (⟨S1x8192x64, .f32⟩ : BufTy).Contents (Elt Ideal))
    (x3 : (⟨S2x4096x8192, .f32⟩ : BufTy).Contents (Elt Ideal)) (p : Fin 4096) (d : Fin 64) :
    val_main_v6 (F := Ideal) x0 x3 (ix2 p d) = Cert.Gru.agg x3 x0 0 p d := by
  rw [val_main_v6_apply]
  unfold Cert.Gru.agg
  refine Finset.sum_congr rfl fun k _ => ?_
  rw [val_main_v3_apply, val_main_v2_apply, val_main_v0_apply]
  have e1 : idx_main_v2 (idx_main_v3 (lidx_main_v6 (ix2 p d) k)) = ix3 (0 : Fin 2) p k :=
    funext fun a => Fin.ext (by
      have hp := p.isLt; have hk := k.isLt
      match a with
      | ⟨0, _⟩ => rfl
      | ⟨1, _⟩ => show (p.val * 8192 + k.val) / 8192 % 4096 = p.val; omega
      | ⟨2, _⟩ => show (p.val * 8192 + k.val) % 8192 = k.val; omega)
  have e2 : idx_main_v0 (ridx_main_v6 (ix2 p d) k) = ix3 (0 : Fin 1) k d :=
    funext fun a => Fin.ext (by
      have hd := d.isLt; have hk := k.isLt
      match a with
      | ⟨0, _⟩ => rfl
      | ⟨1, _⟩ => show (k.val * 64 + d.val) / 64 % 8192 = k.val; omega
      | ⟨2, _⟩ => show (k.val * 64 + d.val) % 64 = d.val; omega)
  rw [e1, e2]

/-- The second aggregated message: row `p` of the adjacency's plane 1 against column `d` of the outgoing states. -/
theorem v7_at (x1 : (⟨S1x8192x64, .f32⟩ : BufTy).Contents (Elt Ideal))
    (x3 : (⟨S2x4096x8192, .f32⟩ : BufTy).Contents (Elt Ideal)) (p : Fin 4096) (d : Fin 64) :
    val_main_v7 (F := Ideal) x1 x3 (ix2 p d) = Cert.Gru.agg x3 x1 1 p d := by
  rw [val_main_v7_apply]
  unfold Cert.Gru.agg
  refine Finset.sum_congr rfl fun k _ => ?_
  rw [val_main_v5_apply, val_main_v4_apply, val_main_v1_apply]
  have e1 : idx_main_v4 (idx_main_v5 (lidx_main_v7 (ix2 p d) k)) = ix3 (1 : Fin 2) p k :=
    funext fun a => Fin.ext (by
      have hp := p.isLt; have hk := k.isLt
      match a with
      | ⟨0, _⟩ => rfl
      | ⟨1, _⟩ => show (p.val * 8192 + k.val) / 8192 % 4096 = p.val; omega
      | ⟨2, _⟩ => show (p.val * 8192 + k.val) % 8192 = k.val; omega)
  have e2 : idx_main_v1 (ridx_main_v7 (ix2 p d) k) = ix3 (0 : Fin 1) k d :=
    funext fun a => Fin.ext (by
      have hd := d.isLt; have hk := k.isLt
      match a with
      | ⟨0, _⟩ => rfl
      | ⟨1, _⟩ => show (k.val * 64 + d.val) / 64 % 8192 = k.val; omega
      | ⟨2, _⟩ => show (k.val * 64 + d.val) % 64 = d.val; omega)
  rw [e1, e2]

/-- Three arrays of 4096 rows of 64 laid side by side along the columns, read at row `p` and column `k` of the 192:
    the row of 192 is the three rows of 64 joined, so the entry is the first, second or third array's according to
    whether `k` is below 64, below 128, or not. -/
theorem concat3_at (a b c : S4096x64.Idx → EReal)
    (h : Shape.Concatenates [S4096x64, S4096x64, S4096x64] S4096x192 1) (p : Fin 4096) (k : Fin 192) :
    concatenate S4096x192 1 [⟨S4096x64, a⟩, ⟨S4096x64, b⟩, ⟨S4096x64, c⟩] h (ix2 p k)
      = Cert.Gru.joined (fun d => a (ix2 p d)) (fun d => b (ix2 p d)) (fun d => c (ix2 p d)) k := by
  unfold Cert.Gru.joined
  have hk := k.isLt
  split_ifs with h1 h2
  · exact concatenate_apply_piece (t := S4096x192) 1 [⟨S4096x64, a⟩, ⟨S4096x64, b⟩, ⟨S4096x64, c⟩] h (ix2 p k) 0 (by show 0 < 3; omega) S4096x64 a rfl rfl 0 rfl (ix2 p ⟨k.val, h1⟩)
      (fun b hb => match b with | ⟨0, _⟩ => rfl | ⟨1, _⟩ => absurd rfl hb)
      (by show 0 + k.val = k.val; omega)
  · exact concatenate_apply_piece (t := S4096x192) 1 [⟨S4096x64, a⟩, ⟨S4096x64, b⟩, ⟨S4096x64, c⟩] h (ix2 p k) 1 (by show 1 < 3; omega) S4096x64 b rfl rfl 64 rfl (ix2 p ⟨k.val - 64, by omega⟩)
      (fun b hb => match b with | ⟨0, _⟩ => rfl | ⟨1, _⟩ => absurd rfl hb)
      (by show 64 + (k.val - 64) = k.val; omega)
  · exact concatenate_apply_piece (t := S4096x192) 1 [⟨S4096x64, a⟩, ⟨S4096x64, b⟩, ⟨S4096x64, c⟩] h (ix2 p k) 2 (by show 2 < 3; omega) S4096x64 c rfl rfl 128 rfl (ix2 p ⟨k.val - 128, by omega⟩)
      (fun b hb => match b with | ⟨0, _⟩ => rfl | ⟨1, _⟩ => absurd rfl hb)
      (by show 128 + (k.val - 128) = k.val; omega)

/-- A product's left index at row `p`, contraction position `k`: row `p`, column `k` of the joined array. -/
theorem lidx_at (p : Fin 4096) (q : Fin 64) (k : Fin 192) : lidx_main_v9 (ix2 p q) k = ix2 p k :=
  funext fun a => Fin.ext (by match a with | ⟨0, _⟩ => rfl | ⟨1, _⟩ => rfl)

/-- A product's right index at column `q`, contraction position `k`: row `k`, column `q` of the weights. -/
theorem ridx_at (p : Fin 4096) (q : Fin 64) (k : Fin 192) : ridx_main_v9 (ix2 p q) k = ix2 k q :=
  funext fun a => Fin.ext (by match a with | ⟨0, _⟩ => rfl | ⟨1, _⟩ => rfl)

/-- A bias broadcast over the rows, read at row `p` and column `q`, is the bias entry `q`. -/
theorem bias_idx_at (p : Fin 4096) (q : Fin 64) : idx_main_v10 (idx_main_v11 (ix2 p q)) = ix1 q :=
  funext fun a => Fin.ext (by match a with | ⟨0, _⟩ => rfl)

section Stages
variable (x0 x1 : (⟨S1x8192x64, .f32⟩ : BufTy).Contents (Elt Ideal)) (x2 : (⟨S4096x64, .f32⟩ : BufTy).Contents (Elt Ideal))
  (x3 : (⟨S2x4096x8192, .f32⟩ : BufTy).Contents (Elt Ideal)) (x4 : (⟨S192x64, .f32⟩ : BufTy).Contents (Elt Ideal))
  (x5 : (⟨S64, .f32⟩ : BufTy).Contents (Elt Ideal)) (x6 : (⟨S192x64, .f32⟩ : BufTy).Contents (Elt Ideal))
  (x7 : (⟨S64, .f32⟩ : BufTy).Contents (Elt Ideal)) (x8 : (⟨S192x64, .f32⟩ : BufTy).Contents (Elt Ideal))
  (x9 : (⟨S64, .f32⟩ : BufTy).Contents (Elt Ideal))

/-- The first joined array at row `p`, column `k`: the two aggregated messages and the current state side by side. -/
theorem v8_at (p : Fin 4096) (k : Fin 192) :
    val_main_v8 (F := Ideal) x0 x1 x2 x3 (ix2 p k)
      = Cert.Gru.joined (Cert.Gru.agg x3 x0 0 p) (Cert.Gru.agg x3 x1 1 p) (fun d => x2 (ix2 p d)) k := by
  unfold val_main_v8
  refine (concat3_at _ _ _ _ p k).trans ?_
  simp only [v6_at, v7_at]

/-- The reset gate's pre-activation: the joined row against column `q` of W_r, plus b_r at `q`. -/
theorem v12_at (p : Fin 4096) (q : Fin 64) :
    val_main_v12 (F := Ideal) x0 x1 x2 x3 x4 x5 (ix2 p q)
      = Cert.Gru.pre (Cert.Gru.joined (Cert.Gru.agg x3 x0 0 p) (Cert.Gru.agg x3 x1 1 p) (fun d => x2 (ix2 p d)))
          (fun k => x4 (ix2 k q)) (x5 (ix1 q)) := by
  rw [val_main_v12_apply, val_main_v9_apply, val_main_v11_apply, val_main_v10_apply, bias_idx_at]
  unfold Cert.Gru.pre
  simp only [lidx_at, ridx_at, v8_at]
  rfl

/-- The reset gate: one over one plus the exponential of the negated pre-activation is the logistic function of it,
    once the printed word of 1.0 is read as the extended real one. -/
theorem v18_at (p : Fin 4096) (q : Fin 64) :
    val_main_v18 (F := Ideal) x0 x1 x2 x3 x4 x5 (ix2 p q)
      = Cert.Gru.cellReset (Cert.Gru.agg x3 x0 0 p) (Cert.Gru.agg x3 x1 1 p) (fun d => x2 (ix2 p d))
          (fun k d => x4 (ix2 k d)) (fun d => x5 (ix1 d)) q := by
  rw [val_main_v18_apply, val_main_v17_apply, val_main_cst_0_apply, val_main_v16_apply, val_main_v15_apply,
    val_main_cst_apply, val_main_v14_apply, val_main_v13_apply, v12_at, Ideal.ofBits_def, Ideal.ofBits_one_f32]
  rfl

/-- The update gate's pre-activation: the joined row against column `q` of W_z, plus b_z at `q`. -/
theorem v22_at (p : Fin 4096) (q : Fin 64) :
    val_main_v22 (F := Ideal) x0 x1 x2 x3 x6 x7 (ix2 p q)
      = Cert.Gru.pre (Cert.Gru.joined (Cert.Gru.agg x3 x0 0 p) (Cert.Gru.agg x3 x1 1 p) (fun d => x2 (ix2 p d)))
          (fun k => x6 (ix2 k q)) (x7 (ix1 q)) := by
  rw [val_main_v22_apply, val_main_v19_apply, val_main_v21_apply, val_main_v20_apply]
  unfold Cert.Gru.pre
  have eb : idx_main_v20 (idx_main_v21 (ix2 p q)) = ix1 q := bias_idx_at p q
  have el : ∀ k, lidx_main_v19 (ix2 p q) k = ix2 p k := lidx_at p q
  have er : ∀ k, ridx_main_v19 (ix2 p q) k = ix2 k q := ridx_at p q
  simp only [eb, el, er, v8_at]
  rfl

/-- The update gate, as the reset gate with W_z and b_z. -/
theorem v28_at (p : Fin 4096) (q : Fin 64) :
    val_main_v28 (F := Ideal) x0 x1 x2 x3 x6 x7 (ix2 p q)
      = Cert.Gru.cellUpdate (Cert.Gru.agg x3 x0 0 p) (Cert.Gru.agg x3 x1 1 p) (fun d => x2 (ix2 p d))
          (fun k d => x6 (ix2 k d)) (fun d => x7 (ix1 d)) q := by
  rw [val_main_v28_apply, val_main_v27_apply, val_main_cst_2_apply, val_main_v26_apply, val_main_v25_apply,
    val_main_cst_1_apply, val_main_v24_apply, val_main_v23_apply, v22_at, Ideal.ofBits_def, Ideal.ofBits_one_f32]
  rfl

/-- The current state through the reset gate, entry by entry. -/
theorem v29_at (p : Fin 4096) (d : Fin 64) :
    val_main_v29 (F := Ideal) x0 x1 x2 x3 x4 x5 (ix2 p d)
      = Cert.Gru.cellReset (Cert.Gru.agg x3 x0 0 p) (Cert.Gru.agg x3 x1 1 p) (fun d => x2 (ix2 p d))
          (fun k d => x4 (ix2 k d)) (fun d => x5 (ix1 d)) d * x2 (ix2 p d) := by
  rw [val_main_v29_apply, v18_at]
  rfl

/-- The second joined array at row `p`, column `k`: the two aggregated messages and the gated current state. -/
theorem v30_at (p : Fin 4096) (k : Fin 192) :
    val_main_v30 (F := Ideal) x0 x1 x2 x3 x4 x5 (ix2 p k)
      = Cert.Gru.joined (Cert.Gru.agg x3 x0 0 p) (Cert.Gru.agg x3 x1 1 p)
          (fun d => Cert.Gru.cellReset (Cert.Gru.agg x3 x0 0 p) (Cert.Gru.agg x3 x1 1 p) (fun d => x2 (ix2 p d))
            (fun k d => x4 (ix2 k d)) (fun d => x5 (ix1 d)) d * x2 (ix2 p d)) k := by
  unfold val_main_v30
  refine (concat3_at _ _ _ _ p k).trans ?_
  simp only [v6_at, v7_at, v29_at]

/-- The candidate's pre-activation: the second joined row against column `q` of W_h, plus b_h at `q`. -/
theorem v34_at (p : Fin 4096) (q : Fin 64) :
    val_main_v34 (F := Ideal) x0 x1 x2 x3 x4 x5 x8 x9 (ix2 p q)
      = Cert.Gru.pre (Cert.Gru.joined (Cert.Gru.agg x3 x0 0 p) (Cert.Gru.agg x3 x1 1 p)
          (fun d => Cert.Gru.cellReset (Cert.Gru.agg x3 x0 0 p) (Cert.Gru.agg x3 x1 1 p) (fun d => x2 (ix2 p d))
            (fun k d => x4 (ix2 k d)) (fun d => x5 (ix1 d)) d * x2 (ix2 p d)))
          (fun k => x8 (ix2 k q)) (x9 (ix1 q)) := by
  rw [val_main_v34_apply, val_main_v31_apply, val_main_v33_apply, val_main_v32_apply]
  unfold Cert.Gru.pre
  have eb : idx_main_v32 (idx_main_v33 (ix2 p q)) = ix1 q := bias_idx_at p q
  have el : ∀ k, lidx_main_v31 (ix2 p q) k = ix2 p k := lidx_at p q
  have er : ∀ k, ridx_main_v31 (ix2 p q) k = ix2 k q := ridx_at p q
  simp only [eb, el, er, v30_at]
  rfl

/-- The candidate state: the hyperbolic tangent of its pre-activation. -/
theorem v35_at (p : Fin 4096) (q : Fin 64) :
    val_main_v35 (F := Ideal) x0 x1 x2 x3 x4 x5 x8 x9 (ix2 p q)
      = Cert.Gru.cellCand (Cert.Gru.agg x3 x0 0 p) (Cert.Gru.agg x3 x1 1 p) (fun d => x2 (ix2 p d))
          (fun k d => x4 (ix2 k d)) (fun k d => x8 (ix2 k d)) (fun d => x5 (ix1 d)) (fun d => x9 (ix1 d)) q := by
  rw [val_main_v35_apply, v34_at]
  rfl

/-- The new state of node `p` at feature `q`: the update gate mixes the current state and the candidate. -/
theorem v40_at (p : Fin 4096) (q : Fin 64) :
    val_main_v40 (F := Ideal) x0 x1 x2 x3 x4 x5 x6 x7 x8 x9 (ix2 p q)
      = Cert.Gru.cell (Cert.Gru.agg x3 x0 0 p) (Cert.Gru.agg x3 x1 1 p) (fun d => x2 (ix2 p d))
          (fun k d => x4 (ix2 k d)) (fun k d => x6 (ix2 k d)) (fun k d => x8 (ix2 k d))
          (fun d => x5 (ix1 d)) (fun d => x7 (ix1 d)) (fun d => x9 (ix1 d)) q := by
  rw [val_main_v40_apply, val_main_v38_apply, val_main_v37_apply, val_main_v36_apply, val_main_cst_3_apply,
    val_main_v39_apply, v28_at, v35_at]
  rfl

end Stages

/-- The reference's result is the specification's array, index by index. -/
theorem ref_eq_out
    (x0 x1 : (⟨S1x8192x64, .f32⟩ : BufTy).Contents (Elt Ideal)) (x2 : (⟨S4096x64, .f32⟩ : BufTy).Contents (Elt Ideal))
    (x3 : (⟨S2x4096x8192, .f32⟩ : BufTy).Contents (Elt Ideal)) (x4 : (⟨S192x64, .f32⟩ : BufTy).Contents (Elt Ideal))
    (x5 : (⟨S64, .f32⟩ : BufTy).Contents (Elt Ideal)) (x6 : (⟨S192x64, .f32⟩ : BufTy).Contents (Elt Ideal))
    (x7 : (⟨S64, .f32⟩ : BufTy).Contents (Elt Ideal)) (x8 : (⟨S192x64, .f32⟩ : BufTy).Contents (Elt Ideal))
    (x9 : (⟨S64, .f32⟩ : BufTy).Contents (Elt Ideal)) :
    Cert.ReferenceIdeal.Read.val_main_v40 (F := Ideal) x0 x1 x2 x3 x4 x5 x6 x7 x8 x9
      = Cert.Gru.out x0 x1 x2 x3 x4 x5 x6 x7 x8 x9 := by
  funext i
  obtain ⟨p, q, rfl⟩ : ∃ (p : Fin 4096) (q : Fin 64), i = ix2 p q := ⟨i 0, i 1, eq_ix2 i⟩
  rw [v40_at]
  rfl

end Cert.Gru.Ref

end
-- ==== Proof.lean ====
/-
  One step of a gated graph propagator: a Pallas kernel against its jnp reference.

  Both programs take the incoming and outgoing neighbour states, the current node states, two adjacency matrices and
  three gates' weights and biases, and return the new node states: each node's aggregated incoming and outgoing
  messages (its adjacency rows against the neighbour states), joined with its current state, go through a reset gate
  and an update gate (sigmoids) and a candidate state (tanh), and the update gate mixes the current state and the
  candidate. The kernel computes the two aggregations in two chunks of 4096 columns, adding them in a scratch
  accumulator, over sixteen blocks of 256 rows; the reference computes them whole.

  The five parts of the claim:
  * the kernel as printed, and its idealization, run to the end without a fault and leave their arguments unchanged
    (the same proof at both float instances: the run never looks at a float's value);
  * the reference, a straight line of host operations, runs and leaves its arguments unchanged;
  * the idealization rewrote nothing, so there is nothing to preserve;
  * at exact arithmetic both results are the specification's array of the same arguments (`Cert.Gru.out`): the
    kernel's because a sum over 8192 terms is the sum of its two halves and the sigmoid operation is 1 / (1 + e^(−x)),
    the reference's by unfolding its operations. No entry is assumed finite: these laws hold on all extended reals.
-/
import proofs.«164506_g33844342292619_cont_8to1_b_602_23_alg».proof.Defs
import proofs.«164506_g33844342292619_cont_8to1_b_602_23_alg».proof.Proof.Gen.Kernel
import proofs.«164506_g33844342292619_cont_8to1_b_602_23_alg».proof.Proof.Gen.Kernel.Skeleton
import proofs.«164506_g33844342292619_cont_8to1_b_602_23_alg».proof.Proof.Gen.Kernel.Launch
import proofs.«164506_g33844342292619_cont_8to1_b_602_23_alg».proof.Proof.Gen.Kernel.Points
import proofs.«164506_g33844342292619_cont_8to1_b_602_23_alg».proof.Proof.Gen.KernelIdeal
import proofs.«164506_g33844342292619_cont_8to1_b_602_23_alg».proof.Proof.Gen.KernelIdeal.Skeleton
import proofs.«164506_g33844342292619_cont_8to1_b_602_23_alg».proof.Proof.Gen.KernelIdeal.Launch
import proofs.«164506_g33844342292619_cont_8to1_b_602_23_alg».proof.Proof.Gen.KernelIdeal.Points
import proofs.«164506_g33844342292619_cont_8to1_b_602_23_alg».proof.Proof.Gen.ReferenceIdeal
import proofs.«164506_g33844342292619_cont_8to1_b_602_23_alg».proof.Proof.Gen.ReferenceIdeal.Run
import proofs.«164506_g33844342292619_cont_8to1_b_602_23_alg».proof.Proof.Gen.ReferenceIdeal.Read
import proofs.«164506_g33844342292619_cont_8to1_b_602_23_alg».proof.Proof.Gen.Pre_finite_inputs
import proofs.«164506_g33844342292619_cont_8to1_b_602_23_alg».proof.Proof.WordFrameRun
import proofs.«164506_g33844342292619_cont_8to1_b_602_23_alg».proof.Proof.KernelValue
import proofs.«164506_g33844342292619_cont_8to1_b_602_23_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_word : Cert.frame_Kernel := fun m ρ _ => Cert.Kernel.Gru.frame (F := Bits) m ρ

/-- So does its idealization. -/
theorem frame_ideal : Cert.frame_KernelIdeal := fun m ρ _ => Cert.KernelIdeal.Gru.frame (F := Ideal) m ρ

/-- So does the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At exact arithmetic the kernel's result array ends at the specification's array of its arguments, and the
    reference's at the same function of arguments that agree. -/
theorem algebraic : Cert.algebraic_KernelIdeal_ReferenceIdeal := by
  intro m ρ m' ρ' _ hagree
  refine ⟨fun c => Cert.KernelIdeal.Gru.specOut m c, Cert.KernelIdeal.Gru.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v40_eq, Cert.Gru.Ref.ref_eq_out, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
